-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6x48x28x60x64 : Shape := ⟨6, ![2, 6, 48, 28, 60, 64]⟩
abbrev S2x6x48x28x60x3 : Shape := ⟨6, ![2, 6, 48, 28, 60, 3]⟩
abbrev S_ : Shape := ⟨0, ![]⟩

class Facts : Prop where
  bcast_S_S2x6x48x28x60x64 : S_.BroadcastsInDim S2x6x48x28x60x64 (![] : Fin 0 → Fin S2x6x48x28x60x64.rank)
  reducesTo_S2x6x48x28x60x64_S_d0_1_2_3_4_5 : S2x6x48x28x60x64.ReducesTo [0, 1, 2, 3, 4, 5] S_
  h_S_ : 0 < S_.numel
  bcast_S_S2x6x48x28x60x3 : S_.BroadcastsInDim S2x6x48x28x60x3 (![] : Fin 0 → Fin S2x6x48x28x60x3.rank)
  reducesTo_S2x6x48x28x60x3_S_d0_1_2_3_4_5 : S2x6x48x28x60x3.ReducesTo [0, 1, 2, 3, 4, 5] S_

variable [Facts]

def fn {F : FTy → Type} [FloatOps F] (main_arg0 : FVec F S2x6x48x28x60x64 .f32) (main_arg1 : FVec F S2x6x48x28x60x3 .f32) : IVec S_ 1 :=
  let main_v0 : FVec F S2x6x48x28x60x64 .f32 := Host.absf main_arg0
  let main_cst : FVec F S_ .f32 := constant S_ .f32 0x7F800000#32
  let main_v1 : FVec F S2x6x48x28x60x64 .f32 := broadcastInDim S2x6x48x28x60x64 ![] bcast_S_S2x6x48x28x60x64 main_cst
  let main_v2 : IVec S2x6x48x28x60x64 1 := cmpf .olt main_v0 main_v1
  let main_c : IVec S_ 1 := constantI S_ 1 1#1
  let main_v3 : IVec S_ 1 := (fun x v => Host.reduce IntOp.andi x v reducesTo_S2x6x48x28x60x64_S_d0_1_2_3_4_5 h_S_) main_v2 main_c
  let main_v4 : FVec F S2x6x48x28x60x3 .f32 := Host.absf main_arg1
  let main_cst_0 : FVec F S_ .f32 := constant S_ .f32 0x7F800000#32
  let main_v5 : FVec F S2x6x48x28x60x3 .f32 := broadcastInDim S2x6x48x28x60x3 ![] bcast_S_S2x6x48x28x60x3 main_cst_0
  let main_v6 : IVec S2x6x48x28x60x3 1 := cmpf .olt main_v4 main_v5
  let main_c_1 : IVec S_ 1 := constantI S_ 1 1#1
  let main_v7 : IVec S_ 1 := (fun x v => Host.reduce IntOp.andi x v reducesTo_S2x6x48x28x60x3_S_d0_1_2_3_4_5 h_S_) main_v6 main_c_1
  let main_v8 : IVec S_ 1 := andi main_v3 main_v7
  main_v8
-- ==== Kernel.lean ====
abbrev S2x6x48x28x60x64 : Shape := ⟨6, ![2, 6, 48, 28, 60, 64]⟩
abbrev S2x6x48x28x60x3 : Shape := ⟨6, ![2, 6, 48, 28, 60, 3]⟩
abbrev S3 : Shape := ⟨1, ![3]⟩
abbrev S_ : Shape := ⟨0, ![]⟩
abbrev S1x1x1x1x1x3 : Shape := ⟨6, ![1, 1, 1, 1, 1, 3]⟩
abbrev S2x483840x3 : Shape := ⟨3, ![2, 483840, 3]⟩
abbrev S1x1x3 : Shape := ⟨3, ![1, 1, 3]⟩
abbrev S2x483840 : Shape := ⟨2, ![2, 483840]⟩
abbrev S2x483840x1 : Shape := ⟨3, ![2, 483840, 1]⟩
abbrev S2x483840x64 : Shape := ⟨3, ![2, 483840, 64]⟩
abbrev S2x40000x64 : Shape := ⟨3, ![2, 40000, 64]⟩
abbrev S1x1920x64 : Shape := ⟨3, ![1, 1920, 64]⟩
abbrev S1x1920x1 : Shape := ⟨3, ![1, 1920, 1]⟩
abbrev S1x1000x64 : Shape := ⟨3, ![1, 1000, 64]⟩
abbrev S1000x64 : Shape := ⟨2, ![1000, 64]⟩
abbrev S1920x1 : Shape := ⟨2, ![1920, 1]⟩
abbrev S1920x1000 : Shape := ⟨2, ![1920, 1000]⟩
abbrev S1920x64 : Shape := ⟨2, ![1920, 64]⟩
abbrev S2x200x200x64 : Shape := ⟨4, ![2, 200, 200, 64]⟩
abbrev S2x64x200x200 : Shape := ⟨4, ![2, 64, 200, 200]⟩

abbrev nBuf : Space → Nat
  | .hbm => 49
  | .vmem => 6
  | .smem => 0
  | _ => 0

abbrev bufTy : (tb : Table) → Fin (tcTables nBuf tb) → BufTy
  | .hbm, ⟨0, _⟩ => ⟨S2x6x48x28x60x64, .f32⟩
  | .hbm, ⟨1, _⟩ => ⟨S2x6x48x28x60x3, .f32⟩
  | .hbm, ⟨2, _⟩ => ⟨S3, .f32⟩
  | .hbm, ⟨3, _⟩ => ⟨S3, .f32⟩
  | .hbm, ⟨4, _⟩ => ⟨S3, .i32⟩
  | .hbm, ⟨5, _⟩ => ⟨S_, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S1x1x1x1x1x3, .f32⟩
  | .hbm, ⟨10, _⟩ => ⟨S2x6x48x28x60x3, .f32⟩
  | .hbm, ⟨11, _⟩ => ⟨S2x6x48x28x60x3, .f32⟩
  | .hbm, ⟨12, _⟩ => ⟨S1x1x1x1x1x3, .f32⟩
  | .hbm, ⟨13, _⟩ => ⟨S2x6x48x28x60x3, .f32⟩
  | .hbm, ⟨14, _⟩ => ⟨S2x6x48x28x60x3, .f32⟩
  | .hbm, ⟨15, _⟩ => ⟨S2x6x48x28x60x3, .i32⟩
  | .hbm, ⟨16, _⟩ => ⟨S2x483840x3, .i32⟩
  | .hbm, ⟨17, _⟩ => ⟨S_, .i32⟩
  | .hbm, ⟨18, _⟩ => ⟨S2x483840x3, .i32⟩
  | .hbm, ⟨19, _⟩ => ⟨S2x483840x3, .i1⟩
  | .hbm, ⟨20, _⟩ => ⟨S1x1x3, .i32⟩
  | .hbm, ⟨21, _⟩ => ⟨S2x483840x3, .i32⟩
  | .hbm, ⟨22, _⟩ => ⟨S2x483840x3, .i1⟩
  | .hbm, ⟨23, _⟩ => ⟨S2x483840x3, .i1⟩
  | .hbm, ⟨24, _⟩ => ⟨S_, .i1⟩
  | .hbm, ⟨25, _⟩ => ⟨S2x483840, .i1⟩
  | .hbm, ⟨26, _⟩ => ⟨S2x483840x1, .i32⟩
  | .hbm, ⟨27, _⟩ => ⟨S2x483840, .i32⟩
  | .hbm, ⟨28, _⟩ => ⟨S_, .i32⟩
  | .hbm, ⟨29, _⟩ => ⟨S2x483840, .i32⟩
  | .hbm, ⟨30, _⟩ => ⟨S2x483840, .i32⟩
  | .hbm, ⟨31, _⟩ => ⟨S2x483840x1, .i32⟩
  | .hbm, ⟨32, _⟩ => ⟨S2x483840, .i32⟩
  | .hbm, ⟨33, _⟩ => ⟨S_, .i32⟩
  | .hbm, ⟨34, _⟩ => ⟨S2x483840, .i32⟩
  | .hbm, ⟨35, _⟩ => ⟨S2x483840, .i32⟩
  | .hbm, ⟨36, _⟩ => ⟨S2x483840, .i32⟩
  | .hbm, ⟨37, _⟩ => ⟨S2x483840x1, .i32⟩
  | .hbm, ⟨38, _⟩ => ⟨S2x483840, .i32⟩
  | .hbm, ⟨39, _⟩ => ⟨S2x483840, .i32⟩
  | .hbm, ⟨40, _⟩ => ⟨S_, .i32⟩
  | .hbm, ⟨41, _⟩ => ⟨S_, .i32⟩
  | .hbm, ⟨42, _⟩ => ⟨S2x483840, .i32⟩
  | .hbm, ⟨43, _⟩ => ⟨S2x483840, .i32⟩
  | .hbm, ⟨44, _⟩ => ⟨S2x483840x1, .i32⟩
  | .hbm, ⟨45, _⟩ => ⟨S2x483840x64, .f32⟩
  | .hbm, ⟨46, _⟩ => ⟨S2x40000x64, .f32⟩
  | .hbm, ⟨47, _⟩ => ⟨S2x200x200x64, .f32⟩
  | .hbm, ⟨48, _⟩ => ⟨S2x64x200x200, .f32⟩
  | .local _ .vmem, ⟨0, _⟩ => ⟨S1x1920x64, .f32⟩
  | .local _ .vmem, ⟨1, _⟩ => ⟨S1x1920x64, .f32⟩
  | .local _ .vmem, ⟨2, _⟩ => ⟨S1x1920x1, .i32⟩
  | .local _ .vmem, ⟨3, _⟩ => ⟨S1x1920x1, .i32⟩
  | .local _ .vmem, ⟨4, _⟩ => ⟨S1x1000x64, .f32⟩
  | .local _ .vmem, ⟨5, _⟩ => ⟨S1x1000x64, .f32⟩
  | _, _ => ⟨S2x6x48x28x60x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_c : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_call0_v0 : Ref sig .tc := ⟨.hbm, 41, rfl⟩
abbrev main_call0_v1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 40, 252], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1920x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1920x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S3 : S_.BroadcastsInDim S3 (![] : Fin 0 → Fin S3.rank)
  bcast_S3_S1x1x1x1x1x3_5 : S3.BroadcastsInDim S1x1x1x1x1x3 (![5] : Fin 1 → Fin S1x1x1x1x1x3.rank)
  bcast_S1x1x1x1x1x3_S2x6x48x28x60x3_0_1_2_3_4_5 : S1x1x1x1x1x3.BroadcastsInDim S2x6x48x28x60x3 (![0, 1, 2, 3, 4, 5] : Fin 6 → Fin S2x6x48x28x60x3.rank)
  shapeCasts_S2x6x48x28x60x3_S2x483840x3 : S2x6x48x28x60x3.ShapeCasts S2x483840x3
  bcast_S_S2x483840x3 : S_.BroadcastsInDim S2x483840x3 (![] : Fin 0 → Fin S2x483840x3.rank)
  bcast_S3_S1x1x3_2 : S3.BroadcastsInDim S1x1x3 (![2] : Fin 1 → Fin S1x1x3.rank)
  bcast_S1x1x3_S2x483840x3_0_1_2 : S1x1x3.BroadcastsInDim S2x483840x3 (![0, 1, 2] : Fin 3 → Fin S2x483840x3.rank)
  reducesTo_S2x483840x3_S2x483840_d2 : S2x483840x3.ReducesTo [2] S2x483840
  h_S_ : 0 < S_.numel
  slices_S2x483840x3_S2x483840x1_0_0_0 : S2x483840x3.Slices ![0, 0, 0] S2x483840x1
  shapeCasts_S2x483840x1_S2x483840 : S2x483840x1.ShapeCasts S2x483840
  bcast_S_S2x483840 : S_.BroadcastsInDim S2x483840 (![] : Fin 0 → Fin S2x483840.rank)
  slices_S2x483840x3_S2x483840x1_0_0_1 : S2x483840x3.Slices ![0, 0, 1] S2x483840x1
  slices_S2x483840x3_S2x483840x1_0_0_2 : S2x483840x3.Slices ![0, 0, 2] S2x483840x1
  shapeCasts_S2x483840_S2x483840x1 : S2x483840.ShapeCasts S2x483840x1
  shapeCasts_S2x6x48x28x60x64_S2x483840x64 : S2x6x48x28x60x64.ShapeCasts S2x483840x64
  inb_S1x1000x64_S1x1000x64_0_0_0 : ∀ a, (![0, 0, 0] : Fin 3 → Nat) a + S1x1000x64.size a ≤ S1x1000x64.size a
  h_S1x1000x64 : 0 < S1x1000x64.numel
  shapeCasts_S1x1000x64_S1000x64 : S1x1000x64.ShapeCasts S1000x64
  shapeCasts_S1000x64_S1x1000x64 : S1000x64.ShapeCasts S1x1000x64
  inb_S1x1920x1_S1x1920x1_0_0_0 : ∀ a, (![0, 0, 0] : Fin 3 → Nat) a + S1x1920x1.size a ≤ S1x1920x1.size a
  h_S1x1920x1 : 0 < S1x1920x1.numel
  shapeCasts_S1x1920x1_S1920x1 : S1x1920x1.ShapeCasts S1920x1
  iota_S1920x1000_d1_w32 : S1920x1000.Iotas .tc 32 [1]
  broadcasts_S1920x1_S1920x1000 : S1920x1.Broadcasts S1920x1000
  natLt_1_32 : 1 < 32
  bitsLt_bf16_f32 : FTy.bits .bf16 < FTy.bits .f32
  inb_S1x1920x64_S1x1920x64_0_0_0 : ∀ a, (![0, 0, 0] : Fin 3 → Nat) a + S1x1920x64.size a ≤ S1x1920x64.size a
  h_S1x1920x64 : 0 < S1x1920x64.numel
  shapeCasts_S1x1920x64_S1920x64 : S1x1920x64.ShapeCasts S1920x64
  shapeCasts_S2x40000x64_S2x200x200x64 : S2x40000x64.ShapeCasts S2x200x200x64
  transposes_S2x200x200x64_S2x64x200x200_0_3_1_2 : S2x200x200x64.Transposes [0, 3, 1, 2] S2x64x200x200
  dot_S1920x1000_S1920x64_S1000x64_0_0_1_1_n_n_wf : DotDims.WF S1920x1000 S1920x64 S1000x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1920x64.size a ≤ S2x483840x64.size a
  hwx0_0 : ∀ i : grid0.Coords, EltTy.bits .f32 = 32 ∨ (Rect.block (s := S2x483840x64) S1x1920x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1920x1.size a ≤ S2x483840x1.size a
  hwx0_1 : ∀ i : grid0.Coords, EltTy.bits .i32 = 32 ∨ (Rect.block (s := S2x483840x1) S1x1920x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x64.size a ≤ S2x40000x64.size a
  hwx0_2 : ∀ i : grid0.Coords, EltTy.bits .f32 = 32 ∨ (Rect.block (s := S2x40000x64) S1x1000x64.size (cc0_transform_2 i) (hinb0_2 i)).WholeWords (EltTy.packing .f32)

variable [Facts₀]

def dot_S1920x1000_S1920x64_S1000x64_0_0_1_1_n_n : DotDims S1920x1000 S1920x64 S1000x64 where
  lhsContracting := [0]
  rhsContracting := [0]
  lhsNonContracting := [1]
  rhsNonContracting := [1]
  lhsBatch := []
  rhsBatch := []
  wf := dot_S1920x1000_S1920x64_S1000x64_0_0_1_1_n_n_wf

abbrev win0_0 : Pipeline.Window sig grid0 :=
  Pipeline.Window.ofSpec (Memref.whole main_v32) S1x1920x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x1920x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x1000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x6x48x28x60x64 : Shape := ⟨6, ![2, 6, 48, 28, 60, 64]⟩
abbrev S2x6x48x28x60x3 : Shape := ⟨6, ![2, 6, 48, 28, 60, 3]⟩
abbrev S3 : Shape := ⟨1, ![3]⟩
abbrev S_ : Shape := ⟨0, ![]⟩
abbrev S1x1x1x1x1x3 : Shape := ⟨6, ![1, 1, 1, 1, 1, 3]⟩
abbrev S2x483840x3 : Shape := ⟨3, ![2, 483840, 3]⟩
abbrev S2x483840x64 : Shape := ⟨3, ![2, 483840, 64]⟩
abbrev S1x1x3 : Shape := ⟨3, ![1, 1, 3]⟩
abbrev S2x483840 : Shape := ⟨2, ![2, 483840]⟩
abbrev S2x483840x1 : Shape := ⟨3, ![2, 483840, 1]⟩
abbrev S2 : Shape := ⟨1, ![2]⟩
abbrev S2x1 : Shape := ⟨2, ![2, 1]⟩
abbrev S967680x64 : Shape := ⟨2, ![967680, 64]⟩
abbrev S967680 : Shape := ⟨1, ![967680]⟩
abbrev S80001x64 : Shape := ⟨2, ![80001, 64]⟩
abbrev S967680x1 : Shape := ⟨2, ![967680, 1]⟩
abbrev S80000x64 : Shape := ⟨2, ![80000, 64]⟩
abbrev S2x200x200x1x64 : Shape := ⟨5, ![2, 200, 200, 1, 64]⟩
abbrev S2x1x64x200x200 : Shape := ⟨5, ![2, 1, 64, 200, 200]⟩
abbrev S2x64x200x200 : Shape := ⟨4, ![2, 64, 200, 200]⟩

abbrev nBuf : Space → Nat
  | .hbm => 62
  | .vmem => 0
  | .smem => 0
  | _ => 0

abbrev bufTy : (tb : Table) → Fin (tcTables nBuf tb) → BufTy
  | .hbm, ⟨0, _⟩ => ⟨S2x6x48x28x60x64, .f32⟩
  | .hbm, ⟨1, _⟩ => ⟨S2x6x48x28x60x3, .f32⟩
  | .hbm, ⟨2, _⟩ => ⟨S3, .f32⟩
  | .hbm, ⟨3, _⟩ => ⟨S3, .f32⟩
  | .hbm, ⟨4, _⟩ => ⟨S3, .i32⟩
  | .hbm, ⟨5, _⟩ => ⟨S_, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S1x1x1x1x1x3, .f32⟩
  | .hbm, ⟨10, _⟩ => ⟨S2x6x48x28x60x3, .f32⟩
  | .hbm, ⟨11, _⟩ => ⟨S2x6x48x28x60x3, .f32⟩
  | .hbm, ⟨12, _⟩ => ⟨S1x1x1x1x1x3, .f32⟩
  | .hbm, ⟨13, _⟩ => ⟨S2x6x48x28x60x3, .f32⟩
  | .hbm, ⟨14, _⟩ => ⟨S2x6x48x28x60x3, .f32⟩
  | .hbm, ⟨15, _⟩ => ⟨S2x6x48x28x60x3, .i32⟩
  | .hbm, ⟨16, _⟩ => ⟨S2x483840x3, .i32⟩
  | .hbm, ⟨17, _⟩ => ⟨S2x483840x64, .f32⟩
  | .hbm, ⟨18, _⟩ => ⟨S_, .i32⟩
  | .hbm, ⟨19, _⟩ => ⟨S2x483840x3, .i32⟩
  | .hbm, ⟨20, _⟩ => ⟨S2x483840x3, .i1⟩
  | .hbm, ⟨21, _⟩ => ⟨S1x1x3, .i32⟩
  | .hbm, ⟨22, _⟩ => ⟨S2x483840x3, .i32⟩
  | .hbm, ⟨23, _⟩ => ⟨S2x483840x3, .i1⟩
  | .hbm, ⟨24, _⟩ => ⟨S2x483840x3, .i1⟩
  | .hbm, ⟨25, _⟩ => ⟨S_, .i1⟩
  | .hbm, ⟨26, _⟩ => ⟨S2x483840, .i1⟩
  | .hbm, ⟨27, _⟩ => ⟨S2x483840x1, .i32⟩
  | .hbm, ⟨28, _⟩ => ⟨S2x483840, .i32⟩
  | .hbm, ⟨29, _⟩ => ⟨S_, .i32⟩
  | .hbm, ⟨30, _⟩ => ⟨S2x483840, .i32⟩
  | .hbm, ⟨31, _⟩ => ⟨S2x483840, .i32⟩
  | .hbm, ⟨32, _⟩ => ⟨S2x483840x1, .i32⟩
  | .hbm, ⟨33, _⟩ => ⟨S2x483840, .i32⟩
  | .hbm, ⟨34, _⟩ => ⟨S_, .i32⟩
  | .hbm, ⟨35, _⟩ => ⟨S2x483840, .i32⟩
  | .hbm, ⟨36, _⟩ => ⟨S2x483840, .i32⟩
  | .hbm, ⟨37, _⟩ => ⟨S2x483840, .i32⟩
  | .hbm, ⟨38, _⟩ => ⟨S2x483840x1, .i32⟩
  | .hbm, ⟨39, _⟩ => ⟨S2x483840, .i32⟩
  | .hbm, ⟨40, _⟩ => ⟨S2x483840, .i32⟩
  | .hbm, ⟨41, _⟩ => ⟨S2, .i32⟩
  | .hbm, ⟨42, _⟩ => ⟨S2x1, .i32⟩
  | .hbm, ⟨43, _⟩ => ⟨S_, .i32⟩
  | .hbm, ⟨44, _⟩ => ⟨S2x1, .i32⟩
  | .hbm, ⟨45, _⟩ => ⟨S2x1, .i32⟩
  | .hbm, ⟨46, _⟩ => ⟨S2x483840, .i32⟩
  | .hbm, ⟨47, _⟩ => ⟨S2x483840, .i32⟩
  | .hbm, ⟨48, _⟩ => ⟨S_, .i32⟩
  | .hbm, ⟨49, _⟩ => ⟨S_, .i32⟩
  | .hbm, ⟨50, _⟩ => ⟨S2x483840, .i32⟩
  | .hbm, ⟨51, _⟩ => ⟨S2x483840, .i32⟩
  | .hbm, ⟨52, _⟩ => ⟨S967680x64, .f32⟩
  | .hbm, ⟨53, _⟩ => ⟨S967680, .i32⟩
  | .hbm, ⟨54, _⟩ => ⟨S_, .f32⟩
  | .hbm, ⟨55, _⟩ => ⟨S80001x64, .f32⟩
  | .hbm, ⟨56, _⟩ => ⟨S967680x1, .i32⟩
  | .hbm, ⟨57, _⟩ => ⟨S80001x64, .f32⟩
  | .hbm, ⟨58, _⟩ => ⟨S80000x64, .f32⟩
  | .hbm, ⟨59, _⟩ => ⟨S2x200x200x1x64, .f32⟩
  | .hbm, ⟨60, _⟩ => ⟨S2x1x64x200x200, .f32⟩
  | .hbm, ⟨61, _⟩ => ⟨S2x64x200x200, .f32⟩
  | _, _ => ⟨S2x6x48x28x60x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_c : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_7 : Ref sig .tc := ⟨.hbm, 48, rfl⟩
abbrev main_call0_v0 : Ref sig .tc := ⟨.hbm, 49, rfl⟩
abbrev main_call0_v1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S1x1x1x1x1x3_5 : S3.BroadcastsInDim S1x1x1x1x1x3 (![5] : Fin 1 → Fin S1x1x1x1x1x3.rank)
  bcast_S1x1x1x1x1x3_S2x6x48x28x60x3_0_1_2_3_4_5 : S1x1x1x1x1x3.BroadcastsInDim S2x6x48x28x60x3 (![0, 1, 2, 3, 4, 5] : Fin 6 → Fin S2x6x48x28x60x3.rank)
  shapeCasts_S2x6x48x28x60x3_S2x483840x3 : S2x6x48x28x60x3.ShapeCasts S2x483840x3
  shapeCasts_S2x6x48x28x60x64_S2x483840x64 : S2x6x48x28x60x64.ShapeCasts S2x483840x64
  bcast_S_S2x483840x3 : S_.BroadcastsInDim S2x483840x3 (![] : Fin 0 → Fin S2x483840x3.rank)
  bcast_S3_S1x1x3_2 : S3.BroadcastsInDim S1x1x3 (![2] : Fin 1 → Fin S1x1x3.rank)
  bcast_S1x1x3_S2x483840x3_0_1_2 : S1x1x3.BroadcastsInDim S2x483840x3 (![0, 1, 2] : Fin 3 → Fin S2x483840x3.rank)
  reducesTo_S2x483840x3_S2x483840_d2 : S2x483840x3.ReducesTo [2] S2x483840
  h_S_ : 0 < S_.numel
  slices_S2x483840x3_S2x483840x1_0_0_0 : S2x483840x3.Slices ![0, 0, 0] S2x483840x1
  shapeCasts_S2x483840x1_S2x483840 : S2x483840x1.ShapeCasts S2x483840
  bcast_S_S2x483840 : S_.BroadcastsInDim S2x483840 (![] : Fin 0 → Fin S2x483840.rank)
  slices_S2x483840x3_S2x483840x1_0_0_1 : S2x483840x3.Slices ![0, 0, 1] S2x483840x1
  slices_S2x483840x3_S2x483840x1_0_0_2 : S2x483840x3.Slices ![0, 0, 2] S2x483840x1
  bcast_S2_S2x1_0 : S2.BroadcastsInDim S2x1 (![0] : Fin 1 → Fin S2x1.rank)
  bcast_S_S2x1 : S_.BroadcastsInDim S2x1 (![] : Fin 0 → Fin S2x1.rank)
  bcast_S2x1_S2x483840_0_1 : S2x1.BroadcastsInDim S2x483840 (![0, 1] : Fin 2 → Fin S2x483840.rank)
  shapeCasts_S2x483840x64_S967680x64 : S2x483840x64.ShapeCasts S967680x64
  shapeCasts_S2x483840_S967680 : S2x483840.ShapeCasts S967680
  bcast_S_S80001x64 : S_.BroadcastsInDim S80001x64 (![] : Fin 0 → Fin S80001x64.rank)
  bcast_S967680_S967680x1_0 : S967680.BroadcastsInDim S967680x1 (![0] : Fin 1 → Fin S967680x1.rank)
  slices_S80001x64_S80000x64_0_0 : S80001x64.Slices ![0, 0] S80000x64
  shapeCasts_S80000x64_S2x200x200x1x64 : S80000x64.ShapeCasts S2x200x200x1x64
  transposes_S2x200x200x1x64_S2x1x64x200x200_0_3_4_1_2 : S2x200x200x1x64.Transposes [0, 3, 4, 1, 2] S2x1x64x200x200
  shapeCasts_S2x1x64x200x200_S2x64x200x200 : S2x1x64x200x200.ShapeCasts S2x64x200x200
  scatter_S80001x64_S967680x1_S967680x64_1_0_0_1_wf : ScatterDims.WF S80001x64 S967680x1 S967680x64 [1] [0] [0] 1

variable [Facts₀]

def scatter_S80001x64_S967680x1_S967680x64_1_0_0_1 : ScatterDims S80001x64 S967680x1 S967680x64 where
  updateWindowDims := [1]
  insertedWindowDims := [0]
  scatterDimsToOperandDims := [0]
  indexVectorDim := 1
  wf := scatter_S80001x64_S967680x1_S967680x64_1_0_0_1_wf

class Facts : Prop extends Facts₀ where

variable [Facts]
-- ==== Proof.KPieces.lean ====
/-
  What each of the body's two cases leaves in the output block, as a value.

  At a tile's first point block the body first stores zeros over the whole block and then stores "what the block
  holds + this point block's contribution" over the whole block again; what is read back in between is the zeros
  just stored. At every other point block it stores "what the block held when the body started + this point block's
  contribution". Either way the block ends as ONE whole-block store, whose value is the body's arithmetic applied to
  the two input blocks and to what the output block held (zeros, or the previous point's result).
-/
import proofs.«142708_j78486232367648_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.KPieces

open Cert.KernelIdeal Cert.KernelIdeal.Gen

variable {F : FTy → Type} [FloatOps F]

theorem hz : (![0, 0, 0] : Fin 3 → Nat) = fun _ => 0 := funext fun a => by fin_cases a <;> rfl

/-- A later point block of a tile: the block held `xo`; it ends at the body's arithmetic of the word block `x1`, the
    feature block `x0` and `xo`. -/
theorem out_B (c : Dev nD) (i : grid0.Coords) (a3 : Memref sig .tc .vmem S1x1920x64 .f32) (h3 : a3.IsWhole)
    (a4 : Memref sig .tc .vmem S1x1920x1 .i32) (h4 : a4.IsWhole) (a5 : Memref sig .tc .vmem S1x1000x64 .f32)
    (h5 : a5.IsWhole) (hc : ¬cond0_0 i) (x0 : Vec F S1x1920x64 .f32) (x1 : Vec F S1x1920x1 .i32)
    (xo : Vec F S1x1000x64 .f32) :
    out0_B_2 c i a3 h3 a4 h4 a5 h5 hc x0 x1 xo = k0_pay2 i x1 x0 xo := by
  unfold out0_B_2
  rw [View.read_writes_eq_canon _ _ _ (cover0_B_2 c i a3 h3 a4 h4 a5 h5 hc x0 x1 xo)]
  unfold kernelRun0_B
  dsimp only
  rw [View.canon_unit_zero hz]
  simp only [View.readAt_eq_ld, h3.read_unread, h4.read_unread, h5.read_unread,
    View.ld_unit_zero (S := S1x1920x64) hz, View.ld_unit_zero (S := S1x1920x1) hz,
    View.ld_unit_zero (S := S1x1000x64) hz]

/-- A tile's first point block: zeros are stored, read back, and the block ends at the body's arithmetic of the two
    input blocks and the zero block. -/
theorem out_A (c : Dev nD) (i : grid0.Coords) (a3 : Memref sig .tc .vmem S1x1920x64 .f32) (h3 : a3.IsWhole)
    (a4 : Memref sig .tc .vmem S1x1920x1 .i32) (h4 : a4.IsWhole) (a5 : Memref sig .tc .vmem S1x1000x64 .f32)
    (h5 : a5.IsWhole) (hc : cond0_0 i) (x0 : Vec F S1x1920x64 .f32) (x1 : Vec F S1x1920x1 .i32) :
    out0_A_2 c i a3 h3 a4 h4 a5 h5 hc x0 x1 = k0_pay2 i x1 x0 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x1000x64) hz, View.readCov_unit_zero (S := S1x1000x64) _ hz]
  simp only [View.readAt_eq_ld, h3.read_unread, h4.read_unread,
    View.ld_unit_zero (S := S1x1920x64) hz, View.ld_unit_zero (S := S1x1920x1) hz,
    View.ld_unit_zero (S := S1x1000x64) hz]

end Cert.KernelIdeal.KPieces

end
-- ==== Proof.KPay.lean ====
/-
  The kernel body's arithmetic, read at one entry of the block it stores.

  At a grid point with voxel-tile coordinate `vt` the body is given a block of 1920 points — their features
  (1920 × 64) and one word each, `s k` — and the 1000 × 64 block accumulated so far. It forms the 1920 × 1000 matrix
  whose entry (k, v) is 1 when `s k − 1000·vt = v` and 0 otherwise, multiplies its transpose into the features, and
  adds the product to the accumulated block. So entry (v, c) of what it stores is the accumulated entry plus the
  sum over the block's points k of [s k − 1000·vt = v] · feature (k, c). The first store of a tile's first point
  writes zeros.
-/
import proofs.«142708_j78486232367648_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPay

open Idealize.ShloMosaic Idealize.ShloMosaic.ValueIdx Cert.KernelIdeal Cert.KernelIdeal.Gen
/-- The product's dimension numbers: both operands contracted over their first axis (the 1920 points). -/
abbrev dd : DotDims S1920x1000 S1920x64 S1000x64 := dot_S1920x1000_S1920x64_S1000x64_0_0_1_1_n_n

theorem dd_rank : dd.contr.rank = 1 := rfl
theorem dd_size : dd.contr.size ⟨0, by rw [dd_rank]; exact Nat.one_pos⟩ = 1920 := rfl

/-- The contraction index with its one coordinate at `k`. -/
abbrev kk (k : Fin 1920) : dd.contr.Idx := (contrEquiv1 dd 1920 dd_rank dd_size).symm k

/-- At output entry (v, c) and contraction position k the left operand is read at (k, v), -/
theorem lhs_at (v : Fin 1000) (c : Fin 64) (k : Fin 1920) : dd.lhsIdx (ix2 v c) (kk k) = ix2 k v := by
  funext a
  apply Fin.ext
  match a with
  | ⟨0, _⟩ =>
    exact (dd.lhsIdx_val_of_single (cl := (0 : Fin 2)) rfl (ix2 v c) (kk k)).trans
      (contrEquiv1_symm_val dd 1920 dd_rank dd_size k)
  | ⟨1, _⟩ => rfl

/-- and the right operand at (k, c). -/
theorem rhs_at (v : Fin 1000) (c : Fin 64) (k : Fin 1920) : dd.rhsIdx (ix2 v c) (kk k) = ix2 k c := by
  funext a
  apply Fin.ext
  match a with
  | ⟨0, _⟩ =>
    exact (dd.rhsIdx_val_of_single (cr := (0 : Fin 2)) rfl (ix2 v c) (kk k)).trans
      (contrEquiv1_symm_val dd 1920 dd_rank dd_size k)
  | ⟨1, _⟩ => rfl

/-- The product into a zero accumulator, entry (v, c): the sum over the points k of L (k, v) · R (k, c). -/
theorem matmul_at (L : FVec Ideal S1920x1000 .bf16) (R : FVec Ideal S1920x64 .bf16) (v : Fin 1000) (c : Fin 64) :
    matmul dd none L R (constant S1000x64 .f32 0x00000000#32) (ix2 v c) = ∑ k : Fin 1920, L (ix2 k v) * R (ix2 k c) := by
  refine (Ideal.matmul_constant_zero_apply dd none L R (ix2 v c)).trans ?_
  rw [← Equiv.sum_comp (contrEquiv1 dd 1920 dd_rank dd_size).symm]
  refine Finset.sum_congr rfl fun k _ => ?_
  rw [lhs_at, rhs_at]

/-- "Are these two words equal", widened to 32 bits and read as a number: 1 or 0. -/
theorem eq_word_real (a b : BitVec 32) :
    (((((IntOp.cmpi .eq a b).setWidth 32).toInt : ℝ)) : EReal) = if a = b then (1 : EReal) else 0 := by
  by_cases h : a = b
  · subst h
    have e : (IntOp.cmpi .eq a a).setWidth 32 = 1#32 := by simp [IntOp.cmpi]
    rw [e, if_pos rfl]
    have : (1#32 : BitVec 32).toInt = 1 := by decide
    rw [this]
    simp
  · have hf : (a == b) = false := by simp [h]
    have e : (IntOp.cmpi .eq a b).setWidth 32 = 0#32 := by
      show (BitVec.ofBool (a == b)).setWidth 32 = 0#32
      rw [hf]
      rfl
    rw [e, if_neg h]
    have : (0#32 : BitVec 32).toInt = 0 := by decide
    rw [this]
    simp

/-- Entry (k, v) of the membership matrix built from the column of words `s`: 1 when `s k` is the word `v`, else 0. -/
theorem onehot_at (s : IVec S1920x1 32) (k : Fin 1920) (v : Fin 1000) :
    (truncf .bf16 (sitofp .f32 (extui 32 (cmpi .eq (broadcastTo S1920x1000 s broadcasts_S1920x1_S1920x1000)
        (iota .tc S1920x1000 32 [1] iota_S1920x1000_d1_w32)) natLt_1_32)) bitsLt_bf16_f32 : FVec Ideal S1920x1000 .bf16) (ix2 k v)
      = if s (ix2 k 0) = BitVec.ofNat 32 v.val then (1 : EReal) else 0 := by
  have hb : broadcastTo S1920x1000 s broadcasts_S1920x1_S1920x1000 (ix2 k v) = s (ix2 k 0) :=
    broadcastTo_apply s _ (ix2 k v) (ix2 k 0) (by
      intro a
      match a with
      | ⟨0, _⟩ => rfl
      | ⟨1, _⟩ => rfl)
  have hi : iota .tc S1920x1000 32 [1] iota_S1920x1000_d1_w32 (ix2 k v) = BitVec.ofNat 32 v.val :=
    iota_single_apply .tc S1920x1000 32 1 _ (ix2 k v)
  refine Eq.trans ?_ (eq_word_real (s (ix2 k 0)) (BitVec.ofNat 32 v.val))
  rw [← hb, ← hi]
  rfl

/-- The zero block the first store of a tile's first point writes. -/
theorem pay1_apply (j : S1x1000x64.Idx) : k0_pay1 (F := Ideal) j = 0 := by
  unfold k0_pay1
  obtain ⟨u, v, c, rfl⟩ : ∃ (u : Fin 1) (v : Fin 1000) (c : Fin 64), j = ix3 u v c := ⟨j 0, j 1, j 2, eq_ix3 j⟩
  refine (shapeCast_ab_1ab_apply _ _ u v c).trans ?_
  exact Ideal.ofBits_zero_f32

/-- What the accumulating store writes at (0, v, c): the loaded accumulator's entry plus the sum over the block's
    points of [word k − 1000·vt = v] · feature (k, c). -/
theorem pay2_apply (i : grid0.Coords) (v3 : Vec Ideal S1x1920x1 .i32) (v14 : Vec Ideal S1x1920x64 .f32)
    (v18 : Vec Ideal S1x1000x64 .f32) (v : Fin 1000) (c : Fin 64) :
    k0_pay2 (F := Ideal) i v3 v14 v18 (ix3 0 v c)
      = v18 (ix3 0 v c) + ∑ k : Fin 1920,
          (if v3 (ix3 0 k 0) - BitVec.ofNat 32 (i 1).val * 1000#32 = BitVec.ofNat 32 v.val then (1 : EReal) else 0)
            * v14 (ix3 0 k c) := by
  unfold k0_pay2
  refine (shapeCast_ab_1ab_apply _ _ 0 v c).trans ?_
  refine congrArg₂ (· + ·) (shapeCast_1ab_ab_apply v18 _ v c) ?_
  refine (matmul_at _ _ v c).trans ?_
  refine Finset.sum_congr rfl fun k _ => ?_
  refine congrArg₂ (· * ·) ((onehot_at _ k v).trans ?_) (shapeCast_1ab_ab_apply v14 _ k c)
  have hs : (shapeCast S1920x1 v3 shapeCasts_S1x1920x1_S1920x1 : IVec S1920x1 32) (ix2 k 0) = v3 (ix3 0 k 0) :=
    shapeCast_1ab_ab_apply v3 _ k 0
  show (if (shapeCast S1920x1 v3 shapeCasts_S1x1920x1_S1920x1 : IVec S1920x1 32) (ix2 k 0)
      - BitVec.ofNat 32 (i 1).val * 1000#32 = BitVec.ofNat 32 v.val then (1 : EReal) else 0) = _
  rw [hs]

end Cert.KernelIdeal.KPay

end
-- ==== Proof.KBlocks.lean ====
/-
  The kernel's three windows, read at one grid point.

  The grid is batch × voxel tile × point block, 2 × 40 × 252, the last axis fastest: point number `t` of the
  20160 has batch `t / 10080`, tile `t / 252 % 40` and point block `t % 252`. The two input windows (the
  features, in blocks of 1920 points × 64 channels, and the one word per point, in blocks of 1920) take the block
  (batch, point block, 0); the output window (the pooled array, in blocks of 1000 cells × 64 channels) takes
  (batch, tile, 0). No block overhangs its array, so a block's entry `j` is the array's entry
  `block index × block size + j` on every axis:

  * entry `(0, k, c)` of an input block at `t` is point `(t % 252) · 1920 + k` of batch `t / 10080`;
  * entry `(0, v, c)` of the output block at `t` is cell `(t / 252 % 40) · 1000 + v` of batch `t / 10080`;
  * an entry of the output array is in the block at `t` exactly when each coordinate is in the block's range;
  * every entry `(b, V, c)` of the output array is in the block of the point with batch `b`, tile `V / 1000` and
    the LAST point block, 251: point number `(40 · b + V / 1000) · 252 + 251`.
-/
import proofs.«142708_j78486232367648_1_alg».proof.Proof.Gen.KernelIdeal.Launch
import Idealize.ShloMosaic.Lib.ValueIdx
import Idealize.ShloMosaic.Lib.Pipeline.Value

namespace Cert.KernelIdeal.KBlocks

open Idealize.ShloMosaic Idealize.ShloMosaic.ValueIdx Idealize.ShloMosaic.TcCoe Cert.KernelIdeal Cert.KernelIdeal.Gen

variable {F : FTy → Type} [FloatOps F]

/-- The printed index maps and the tile coordinate, decided over the 20160 grid points. -/
theorem idx_facts : ∀ t : Fin cfg0.N,
    win0_0.index t (0 : Fin 3) = t.val / 10080 ∧ win0_0.index t (1 : Fin 3) = t.val % 252 ∧ win0_0.index t (2 : Fin 3) = 0
    ∧ win0_1.index t (0 : Fin 3) = t.val / 10080 ∧ win0_1.index t (1 : Fin 3) = t.val % 252 ∧ win0_1.index t (2 : Fin 3) = 0
    ∧ win0_2.index t (0 : Fin 3) = t.val / 10080 ∧ win0_2.index t (1 : Fin 3) = t.val / 252 % 40 ∧ win0_2.index t (2 : Fin 3) = 0
    ∧ ((grid0.coords t) 1).val = t.val / 252 % 40 :=
  (by decide +kernel : ∀ t : Fin grid0.N, _)

/-- There are 20160 grid points. -/
theorem lt_N (t : Fin cfg0.N) : t.val < 20160 := Nat.lt_of_lt_of_eq t.isLt N_0

/-- Entry `(0, k, c)` of the features' block at `t`: point `(t % 252) · 1920 + k` of batch `t / 10080`. -/
theorem read0 (A : S2x483840x64.Idx → Elt F .f32) (t : Fin cfg0.N) (k : Fin 1920) (cc : Fin 64) :
    ((cfg0.win 0).blk t).view.read (Elt F) A (ix3 (0 : Fin 1) k cc)
      = A (ix3 (⟨t.val / 10080, by have := lt_N t; omega⟩ : Fin 2)
            (⟨t.val % 252 * 1920 + k.val, by have := k.isLt; omega⟩ : Fin 483840) cc) := by
  obtain ⟨e0, e1, e2, -⟩ := idx_facts t
  show A (((cfg0.win 0).blk t).view.emb (ix3 (0 : Fin 1) k cc)) = _
  refine congrArg A (funext fun a => Fin.ext ?_)
  match a with
  | ⟨0, _⟩ => show win0_0.index t (0 : Fin 3) * 1 + 1 * 0 = t.val / 10080; omega
  | ⟨1, _⟩ => show win0_0.index t (1 : Fin 3) * 1920 + 1 * k.val = t.val % 252 * 1920 + k.val; omega
  | ⟨2, _⟩ => show win0_0.index t (2 : Fin 3) * 64 + 1 * cc.val = cc.val; omega

/-- Entry `(0, k, 0)` of the per-point words' block at `t`: point `(t % 252) · 1920 + k` of batch `t / 10080`. -/
theorem read1 (A : S2x483840x1.Idx → Elt F .i32) (t : Fin cfg0.N) (k : Fin 1920) :
    ((cfg0.win 1).blk t).view.read (Elt F) A (ix3 (0 : Fin 1) k (0 : Fin 1))
      = A (ix3 (⟨t.val / 10080, by have := lt_N t; omega⟩ : Fin 2)
            (⟨t.val % 252 * 1920 + k.val, by have := k.isLt; omega⟩ : Fin 483840) (0 : Fin 1)) := by
  obtain ⟨-, -, -, e0, e1, e2, -⟩ := idx_facts t
  show A (((cfg0.win 1).blk t).view.emb (ix3 (0 : Fin 1) k (0 : Fin 1))) = _
  refine congrArg A (funext fun a => Fin.ext ?_)
  match a with
  | ⟨0, _⟩ => show win0_1.index t (0 : Fin 3) * 1 + 1 * 0 = t.val / 10080; omega
  | ⟨1, _⟩ => show win0_1.index t (1 : Fin 3) * 1920 + 1 * k.val = t.val % 252 * 1920 + k.val; omega
  | ⟨2, _⟩ => show win0_1.index t (2 : Fin 3) * 1 + 1 * 0 = 0; omega

/-- Entry `(0, v, c)` of the pooled array's block at `t`: cell `(t / 252 % 40) · 1000 + v` of batch `t / 10080`. -/
theorem read2 (A : S2x40000x64.Idx → Elt F .f32) (t : Fin cfg0.N) (v : Fin 1000) (cc : Fin 64) :
    ((cfg0.win 2).blk t).view.read (Elt F) A (ix3 (0 : Fin 1) v cc)
      = A (ix3 (⟨t.val / 10080, by have := lt_N t; omega⟩ : Fin 2)
            (⟨t.val / 252 % 40 * 1000 + v.val, by have := v.isLt; omega⟩ : Fin 40000) cc) := by
  obtain ⟨-, -, -, -, -, -, e0, e1, e2, -⟩ := idx_facts t
  show A (((cfg0.win 2).blk t).view.emb (ix3 (0 : Fin 1) v cc)) = _
  refine congrArg A (funext fun a => Fin.ext ?_)
  match a with
  | ⟨0, _⟩ => show win0_2.index t (0 : Fin 3) * 1 + 1 * 0 = t.val / 10080; omega
  | ⟨1, _⟩ => show win0_2.index t (1 : Fin 3) * 1000 + 1 * v.val = t.val / 252 % 40 * 1000 + v.val; omega
  | ⟨2, _⟩ => show win0_2.index t (2 : Fin 3) * 64 + 1 * cc.val = cc.val; omega

/-- An index of the output array is in point t's block iff each coordinate is in the block's range on its axis. -/
theorem mem_blk2 (t : Fin cfg0.N) (i : S2x40000x64.Idx) :
    i ∈ ((cfg0.win 2).blk t).view.set
      ↔ ∀ a : Fin 3, win0_2.index t a * S1x1000x64.size a ≤ (i a).val ∧ (i a).val < win0_2.index t a * S1x1000x64.size a + S1x1000x64.size a := by
  show i ∈ ((View.whole main_v33).slice (win0_2.rect t)).set ↔ _
  rw [View.set_slice_whole, Rect.mem_set_unit]
  exact Iff.rfl

/-- Every entry of the output array lies in the block of the LAST point block (t % 252 = 251) of its batch and tile. -/
theorem cover2 (b : Fin 2) (V : Fin 40000) (cc : Fin 64) :
    ∃ t : Fin cfg0.N, t.val % 252 = 251 ∧ t.val / 10080 = b.val ∧ t.val / 252 % 40 = V.val / 1000
      ∧ ix3 b V cc ∈ ((cfg0.win 2).blk t).view.set := by
  have hb := b.isLt
  have hV := V.isLt
  have hc := cc.isLt
  refine ⟨⟨(b.val * 40 + V.val / 1000) * 252 + 251, by rw [show cfg0.N = 20160 from N_0]; omega⟩, ?_, ?_, ?_, ?_⟩
  · show ((b.val * 40 + V.val / 1000) * 252 + 251) % 252 = 251
    omega
  · show ((b.val * 40 + V.val / 1000) * 252 + 251) / 10080 = b.val
    omega
  · show ((b.val * 40 + V.val / 1000) * 252 + 251) / 252 % 40 = V.val / 1000
    omega
  · rw [mem_blk2]
    obtain ⟨-, -, -, -, -, -, e0, e1, e2, -⟩ :=
      idx_facts ⟨(b.val * 40 + V.val / 1000) * 252 + 251, by rw [show cfg0.N = 20160 from N_0]; omega⟩
    have q0 : ((b.val * 40 + V.val / 1000) * 252 + 251) / 10080 = b.val := by omega
    have q1 : ((b.val * 40 + V.val / 1000) * 252 + 251) / 252 % 40 = V.val / 1000 := by omega
    intro a
    match a with
    | ⟨0, _⟩ =>
      show win0_2.index _ (0 : Fin 3) * 1 ≤ b.val ∧ b.val < win0_2.index _ (0 : Fin 3) * 1 + 1
      rw [e0]; show _ / 10080 * 1 ≤ b.val ∧ b.val < _ / 10080 * 1 + 1; rw [q0]; omega
    | ⟨1, _⟩ =>
      show win0_2.index _ (1 : Fin 3) * 1000 ≤ V.val ∧ V.val < win0_2.index _ (1 : Fin 3) * 1000 + 1000
      rw [e1]; show _ / 252 % 40 * 1000 ≤ V.val ∧ V.val < _ / 252 % 40 * 1000 + 1000; rw [q1]; omega
    | ⟨2, _⟩ =>
      show win0_2.index _ (2 : Fin 3) * 64 ≤ cc.val ∧ cc.val < win0_2.index _ (2 : Fin 3) * 64 + 64
      rw [e2]; omega

end Cert.KernelIdeal.KBlocks
-- ==== Proof.Spec.lean ====
/-
  The specification both programs are compared against: per batch, channel and grid cell, the sum of the features
  of the points that fall in that cell.

  A point `p` of batch `b` counts for cell `(x, y)` when it is valid (all three voxel coordinates inside the grid)
  and its voxel's row-major number is `200·x + y`. The features are read as batch × point × channel, validity and
  voxel number as batch × point; which arrays those are is left to the two programs, which compute them from the
  same inputs by the same operations.
-/
import Idealize.ShloMosaic.PureOps.Ideal
import Idealize.ShloMosaic.Lib.ValueIdx

noncomputable section

open scoped BigOperators

namespace Cert.Pool

open Idealize.ShloMosaic Idealize.ShloMosaic.ValueIdx

/-- Features: batch × point × channel. -/
abbrev SFeat : Shape := ⟨3, ![2, 483840, 64]⟩
/-- One word per point: batch × point. -/
abbrev SPt : Shape := ⟨2, ![2, 483840]⟩
/-- The result: batch × channel × 200 × 200. -/
abbrev SOut : Shape := ⟨4, ![2, 64, 200, 200]⟩

/-- The number of a grid cell among the 40000 of one batch, as a 32-bit word. -/
def cellNo (x y : Fin 200) : BitVec 32 := BitVec.ofNat 32 (x.val * 200 + y.val)

/-- The sum, over the points of batch `b`, of channel `c` of those that are valid and lie in cell `(x, y)`. -/
def pool (X : SFeat.Idx → EReal) (valid : SPt.Idx → BitVec 1) (rank : SPt.Idx → BitVec 32)
    (b : Fin 2) (c : Fin 64) (x y : Fin 200) : EReal :=
  ∑ p : Fin 483840, if valid (ix2 b p) = 1#1 ∧ rank (ix2 b p) = cellNo x y then X (ix3 b p c) else 0

/-- The whole result array: `pool` read at an output index's four coordinates. -/
def G (X : SFeat.Idx → EReal) (valid : SPt.Idx → BitVec 1) (rank : SPt.Idx → BitVec 32) : SOut.Idx → EReal :=
  fun o => pool X valid rank (o 0) (o 1) (o 2) (o 3)

theorem G_ix4 (X : SFeat.Idx → EReal) (valid : SPt.Idx → BitVec 1) (rank : SPt.Idx → BitVec 32)
    (b : Fin 2) (c : Fin 64) (x y : Fin 200) : G X valid rank (ix4 b c x y) = pool X valid rank b c x y := rfl

end Cert.Pool

end
-- ==== Proof.KMath.lean ====
/-
  Sums over a batch's points, taken block by block.

  The kernel visits the 483840 points of a batch in 252 blocks of 1920 and keeps a running sum. `upto n` is the sum
  of the first `n` points' contributions to one cell word `V` and channel `c`; one block adds the contributions of
  its 1920 points; after all blocks the sum runs over every point. A point contributes its feature when its word
  is `V`. The kernel's word is the voxel number for a valid point and −1 otherwise, and −1 is no cell's number, so
  summing over "word = cell number" is summing over "valid and voxel number = cell number".
-/
import Idealize.ShloMosaic.PureOps.Ideal
import Idealize.ShloMosaic.Lib.ValueIdx
import proofs.«142708_j78486232367648_1_alg».proof.Proof.Spec

noncomputable section

open scoped BigOperators

namespace Cert.Pool

open Idealize.ShloMosaic Idealize.ShloMosaic.ValueIdx

variable (X : SFeat.Idx → EReal) (seg : SPt.Idx → BitVec 32) (b : Fin 2) (c : Fin 64) (V : BitVec 32)

/-- Point number `p` of batch `b`: its channel-`c` feature when its word is `V`, nothing otherwise (and nothing
    past the last point). -/
def contrib (p : ℕ) : EReal :=
  if h : p < 483840 then (if seg (ix2 b ⟨p, h⟩) = V then X (ix3 b ⟨p, h⟩ c) else 0) else 0

/-- The first `n` points' contributions. -/
def upto (n : ℕ) : EReal := ∑ p ∈ Finset.range n, contrib X seg b c V p

theorem upto_zero : upto X seg b c V 0 = 0 := Finset.sum_range_zero _

/-- One more block of 1920 points. -/
theorem upto_block (n : ℕ) :
    upto X seg b c V (n + 1920) = upto X seg b c V n + ∑ k : Fin 1920, contrib X seg b c V (n + k.val) := by
  unfold upto
  rw [Finset.sum_range_add]
  congr 1

/-- All the points. -/
theorem upto_all :
    upto X seg b c V 483840 = ∑ p : Fin 483840, if seg (ix2 b p) = V then X (ix3 b p c) else 0 := by
  unfold upto
  rw [Finset.sum_range]
  refine Finset.sum_congr rfl fun p _ => ?_
  unfold contrib
  rw [dif_pos p.isLt]

/-- A contribution inside the batch, spelled with the 0/1 factor the kernel multiplies by. -/
theorem contrib_eq_mul (p : ℕ) (h : p < 483840) :
    contrib X seg b c V p = (if seg (ix2 b ⟨p, h⟩) = V then (1 : EReal) else 0) * X (ix3 b ⟨p, h⟩ c) := by
  unfold contrib
  rw [dif_pos h]
  by_cases hs : seg (ix2 b ⟨p, h⟩) = V
  · rw [if_pos hs, if_pos hs, one_mul]
  · rw [if_neg hs, if_neg hs, zero_mul]

/-- Comparing a word shifted down by a tile's first cell number with a position in the tile is comparing the word
    with the cell number. -/
theorem word_shift (s : BitVec 32) (vt v : ℕ) :
    s - BitVec.ofNat 32 vt * 1000#32 = BitVec.ofNat 32 v ↔ s = BitVec.ofNat 32 (vt * 1000 + v) := by
  have e : BitVec.ofNat 32 v + BitVec.ofNat 32 vt * 1000#32 = BitVec.ofNat 32 (vt * 1000 + v) := by
    apply BitVec.eq_of_toNat_eq
    simp only [BitVec.toNat_add, BitVec.toNat_mul, BitVec.toNat_ofNat]
    omega
  constructor
  · intro h
    rw [← e, ← h, BitVec.sub_add_cancel]
  · intro h
    rw [h, ← e, BitVec.add_sub_cancel]

/-- One term of the kernel's sum: for the word `s` and feature `f` of point `p` of batch `b`, "[s shifted down by
    the tile's first cell number is position v] · f" is that point's contribution to the cell number `1000·vt + v`. -/
theorem term_eq (vt p : ℕ) (hp : p < 483840) (s : BitVec 32) (f : EReal) (v : ℕ)
    (h1 : s = seg (ix2 b ⟨p, hp⟩)) (h0 : f = X (ix3 b ⟨p, hp⟩ c)) :
    (if s - BitVec.ofNat 32 vt * 1000#32 = BitVec.ofNat 32 v then (1 : EReal) else 0) * f
      = contrib X seg b c (BitVec.ofNat 32 (vt * 1000 + v)) p := by
  subst h1 h0
  refine Eq.trans ?_ (contrib_eq_mul X seg b c _ p hp).symm
  exact congrArg (· * _) (if_congr (word_shift _ _ _) rfl rfl)

/-- The kernel's sum over one block of 1920 points, given as the points' words `s k` and features `f k`, when these
    are points `q … q + 1919` of batch `b`: the contributions of those points. -/
theorem block_sum (vt q : ℕ) (hq : q + 1920 ≤ 483840) (s : Fin 1920 → BitVec 32) (f : Fin 1920 → EReal) (v : ℕ)
    (h1 : ∀ k : Fin 1920, s k = seg (ix2 b ⟨q + k.val, by have := k.isLt; omega⟩))
    (h0 : ∀ k : Fin 1920, f k = X (ix3 b ⟨q + k.val, by have := k.isLt; omega⟩ c)) :
    (∑ k : Fin 1920, (if s k - BitVec.ofNat 32 vt * 1000#32 = BitVec.ofNat 32 v then (1 : EReal) else 0) * f k)
      = ∑ k : Fin 1920, contrib X seg b c (BitVec.ofNat 32 (vt * 1000 + v)) (q + k.val) :=
  Finset.sum_congr rfl fun k _ =>
    term_eq X seg b c vt (q + k.val) (by have := k.isLt; omega) (s k) (f k) v (h1 k) (h0 k)

/-- −1 is no cell's number. -/
theorem cellNo_ne_neg_one (x y : Fin 200) : (4294967295#32 : BitVec 32) ≠ cellNo x y := by
  have hx := x.isLt
  have hy := y.isLt
  have hc : (cellNo x y).toNat = x.val * 200 + y.val := by
    unfold cellNo
    rw [BitVec.toNat_ofNat]
    exact Nat.mod_eq_of_lt (by omega)
  intro h
  have h2 : (4294967295#32 : BitVec 32).toNat = (cellNo x y).toNat := congrArg BitVec.toNat h
  rw [hc] at h2
  have h3 : (4294967295#32 : BitVec 32).toNat = 4294967295 := by decide
  omega

/-- Summing a batch's features over "word = cell number", for the word that is the voxel number of a valid point and
    −1 otherwise, is the specification's sum over "valid and voxel number = cell number". -/
theorem pool_of_word (valid : SPt.Idx → BitVec 1) (rank : SPt.Idx → BitVec 32)
    (hseg : ∀ (b : Fin 2) (p : Fin 483840),
      seg (ix2 b p) = if valid (ix2 b p) = 1#1 then rank (ix2 b p) else 4294967295#32)
    (x y : Fin 200) :
    (∑ p : Fin 483840, if seg (ix2 b p) = cellNo x y then X (ix3 b p c) else 0) = pool X valid rank b c x y := by
  unfold pool
  refine Finset.sum_congr rfl fun p _ => ?_
  rw [hseg b p]
  by_cases hv : valid (ix2 b p) = 1#1
  · rw [if_pos hv]
    by_cases hr : rank (ix2 b p) = cellNo x y
    · rw [if_pos hr, if_pos ⟨hv, hr⟩]
    · rw [if_neg hr, if_neg (fun h => hr h.2)]
  · rw [if_neg hv, if_neg (cellNo_ne_neg_one x y), if_neg (fun h => hv h.1)]

end Cert.Pool

end
-- ==== Proof.KTerm.lean ====
/-
  The kernel program's host-side values before its one region, named piece by piece as functions of the two
  argument arrays: each point's voxel coordinates `vox`, whether it is `valid` (all three inside the 200 × 200 × 1
  grid), its voxel's row-major number `rank` = 200·i + j + k, the word `seg` the region is given per point — the
  rank, or −1 for a point that is not valid — and the features `feat` as batch × point × channel.
-/
import proofs.«142708_j78486232367648_1_alg».proof.KernelIdeal

noncomputable section

namespace Cert.KernelIdeal.KTerm

open Idealize.ShloMosaic Cert.KernelIdeal Cert.KernelIdeal.Facts₀ Cert.KernelIdeal.Facts

variable {F : FTy → Type} [FloatOps F] [Cert.KernelIdeal.Facts]

/-- The cell sizes (0.5, 0.5, 20), one per coordinate. -/
def cell : FVec F S3 .f32 := fun i => FloatOps.ofBits .f32 (lit0 (S3.rowMajor i))

/-- The grid's lower corner: the first cell's centre (−49.75, −49.75, 0) minus half a cell. -/
def corner : FVec F S3 .f32 :=
  subf (fun i => FloatOps.ofBits .f32 (lit1 (S3.rowMajor i)))
    (Host.divf (cell (F := F)) (broadcastInDim S3 ![] bcast_S_S3 (constant S_ .f32 0x40000000#32)))

/-- Every point's three voxel coordinates: (position − corner) / cell size, truncated to an integer. -/
def vox (g : FVec F S2x6x48x28x60x3 .f32) : IVec S2x483840x3 32 :=
  shapeCast S2x483840x3
    (fptosi 32
      (Host.divf
        (subf g
          (broadcastInDim S2x6x48x28x60x3 ![0, 1, 2, 3, 4, 5] bcast_S1x1x1x1x1x3_S2x6x48x28x60x3_0_1_2_3_4_5
            (broadcastInDim S1x1x1x1x1x3 ![5] bcast_S3_S1x1x1x1x1x3_5 (corner (F := F)))))
        (broadcastInDim S2x6x48x28x60x3 ![0, 1, 2, 3, 4, 5] bcast_S1x1x1x1x1x3_S2x6x48x28x60x3_0_1_2_3_4_5
          (broadcastInDim S1x1x1x1x1x3 ![5] bcast_S3_S1x1x1x1x1x3_5 (cell (F := F))))))
    shapeCasts_S2x6x48x28x60x3_S2x483840x3

/-- A point is valid when each coordinate is at least 0 and below the grid's extent (200, 200, 1) on its axis. -/
def valid (g : FVec F S2x6x48x28x60x3 .f32) : IVec S2x483840 1 :=
  Host.reduce IntOp.andi
    (andi
      (cmpi .sge (vox g) (broadcastInDim S2x483840x3 ![] bcast_S_S2x483840x3 (constantI S_ 32 0#32)))
      (cmpi .slt (vox g)
        (broadcastInDim S2x483840x3 ![0, 1, 2] bcast_S1x1x3_S2x483840x3_0_1_2
          (broadcastInDim S1x1x3 ![2] bcast_S3_S1x1x3_2 (fun i => lit2 (S3.rowMajor i))))))
    (constantI S_ 1 1#1) reducesTo_S2x483840x3_S2x483840_d2 h_S_

/-- Coordinate `k` of every point, as a batch × point array. -/
def coord0 (g : FVec F S2x6x48x28x60x3 .f32) : IVec S2x483840 32 :=
  shapeCast S2x483840 (extractStridedSlice S2x483840x1 ![0, 0, 0] (vox g) slices_S2x483840x3_S2x483840x1_0_0_0)
    shapeCasts_S2x483840x1_S2x483840
def coord1 (g : FVec F S2x6x48x28x60x3 .f32) : IVec S2x483840 32 :=
  shapeCast S2x483840 (extractStridedSlice S2x483840x1 ![0, 0, 1] (vox g) slices_S2x483840x3_S2x483840x1_0_0_1)
    shapeCasts_S2x483840x1_S2x483840
def coord2 (g : FVec F S2x6x48x28x60x3 .f32) : IVec S2x483840 32 :=
  shapeCast S2x483840 (extractStridedSlice S2x483840x1 ![0, 0, 2] (vox g) slices_S2x483840x3_S2x483840x1_0_0_2)
    shapeCasts_S2x483840x1_S2x483840

/-- The voxel's row-major number in the 200 × 200 × 1 grid: 200·i + 1·j + k, in 32-bit arithmetic. -/
def rank (g : FVec F S2x6x48x28x60x3 .f32) : IVec S2x483840 32 :=
  addi
    (addi
      (muli (coord0 g) (broadcastInDim S2x483840 ![] bcast_S_S2x483840 (constantI S_ 32 200#32)))
      (muli (coord1 g) (broadcastInDim S2x483840 ![] bcast_S_S2x483840 (constantI S_ 32 1#32))))
    (coord2 g)

/-- The word the region is given per point: the rank when valid, −1 (no cell's number) otherwise. -/
def seg (g : FVec F S2x6x48x28x60x3 .f32) : IVec S2x483840 32 :=
  select (valid g) (rank g)
    (broadcastInDim S2x483840 ![] bcast_S_S2x483840 (id (constantI S_ 32 4294967295#32)))

/-- The features as batch × point × channel. -/
def feat (x : FVec F S2x6x48x28x60x64 .f32) : FVec F S2x483840x64 .f32 :=
  shapeCast S2x483840x64 x shapeCasts_S2x6x48x28x60x64_S2x483840x64

end Cert.KernelIdeal.KTerm

end
-- ==== Proof.KInv.lean ====
/-
  What the output block holds after each grid point: a running sum.

  Fix a core. Write `X` for the features (batch × point × channel) and `W` for the per-point words the region is
  given. Grid point `n` is batch `n / 10080`, voxel tile `n / 252 % 40`, point block `n % 252`; its two input blocks
  are points `1920·(n % 252) … 1920·(n % 252) + 1919` of that batch. Entry (v, c) of the output block after point
  `n` is the sum, over the batch's first `1920·(n % 252 + 1)` points, of channel `c` of the points whose word is the
  cell number `1000·(n / 252 % 40) + v`: at a tile's first point block the block is zeroed and one block of points
  is added; at every other point block one more block of points is added to what the point before left (same batch,
  same tile). By induction on the point.
-/
import proofs.«142708_j78486232367648_1_alg».proof.Proof.Gen.KernelIdeal.Frame
import proofs.«142708_j78486232367648_1_alg».proof.Proof.KPieces
import proofs.«142708_j78486232367648_1_alg».proof.Proof.KPay
import proofs.«142708_j78486232367648_1_alg».proof.Proof.KBlocks
import proofs.«142708_j78486232367648_1_alg».proof.Proof.KMath
import proofs.«142708_j78486232367648_1_alg».proof.Proof.KTerm

set_option maxRecDepth 16384

noncomputable section

open scoped BigOperators
open Idealize.ShloMosaic Idealize.ShloMosaic.TcCoe Idealize.ShloMosaic.ValueIdx Idealize.SL.Sem

namespace Cert.KernelIdeal.KInv

open Cert.KernelIdeal Cert.KernelIdeal.Gen

variable (m : (ℓ : Loc nD τ sig) → Buf (Elt Ideal) ℓ)

/-- The features the region reads on core `c`. -/
abbrev X (c : Dev nD) : Cert.Pool.SFeat.Idx → EReal := KTerm.feat (F := Ideal) (m ((c : Thread nD τ).loc main_arg0))
/-- The per-point words the region reads on core `c`. -/
abbrev W (c : Dev nD) : Cert.Pool.SPt.Idx → BitVec 32 := KTerm.seg (F := Ideal) (m ((c : Thread nD τ).loc main_arg1))

/-- What the region finds in its two input arrays on core `c`: the features as batch × point × channel, and the
    words as batch × point × 1 (both are values of the host operations before the region). -/
def Inputs (c : Dev nD) : Prop :=
  V m c main_v32 = KTerm.feat (F := Ideal) (m ((c : Thread nD τ).loc main_arg0))
  ∧ V m c main_v31 = shapeCast S2x483840x1 (KTerm.seg (F := Ideal) (m ((c : Thread nD τ).loc main_arg1))) shapeCasts_S2x483840_S2x483840x1

/-- The batch × point × 1 view of the words holds at (b, p, 0) the word of point p of batch b. -/
theorem seg3_apply (s : IVec S2x483840 32) (b : Fin 2) (p : Fin 483840) :
    shapeCast S2x483840x1 s shapeCasts_S2x483840_S2x483840x1 (ix3 b p (0 : Fin 1)) = s (ix2 b p) := by
  refine shapeCast_apply s _ (ix3 b p (0 : Fin 1)) (ix2 b p) ?_
  rw [Shape.rowMajor_val_two, Shape.rowMajor_val_three]
  show b.val * 483840 + p.val = (b.val * 483840 + p.val) * 1 + 0
  omega

/-- The feature block of point `t`, entry (k, c): the feature of point `1920·(t % 252) + k` of batch `t / 10080`. -/
theorem iblk0_apply (c : Dev nD) (hin : Inputs m c) (t : Fin cfg0.N) (hN : t.val < 20160) (k : Fin 1920) (cc : Fin 64) :
    iblk m c 0 t (ix3 (0 : Fin 1) k cc)
      = X m c (ix3 (⟨t.val / 10080, by omega⟩ : Fin 2) (⟨t.val % 252 * 1920 + k.val, by have := k.isLt; omega⟩ : Fin 483840) cc) := by
  unfold iblk
  refine (KBlocks.read0 _ t k cc).trans ?_
  show V m c main_v32 _ = _
  rw [hin.1]

/-- The word block of point `t`, entry k: the word of point `1920·(t % 252) + k` of batch `t / 10080`. -/
theorem iblk1_apply (c : Dev nD) (hin : Inputs m c) (t : Fin cfg0.N) (hN : t.val < 20160) (k : Fin 1920) :
    iblk m c 1 t (ix3 (0 : Fin 1) k (0 : Fin 1))
      = W m c (ix2 (⟨t.val / 10080, by omega⟩ : Fin 2) (⟨t.val % 252 * 1920 + k.val, by have := k.isLt; omega⟩ : Fin 483840)) := by
  unfold iblk
  refine (KBlocks.read1 _ t k).trans ?_
  show V m c main_v31 _ = _
  rw [hin.2]
  exact seg3_apply _ _ _

/-- THE RUNNING SUM. -/
theorem outsAt_eq (c : Dev nD) (hin : Inputs m c) (n : ℕ) : ∀ (h : n < cfg0.N) (hN : n < 20160) (v : Fin 1000) (cc : Fin 64),
    outsAt0 m c n h (ix3 (0 : Fin 1) v cc)
      = Cert.Pool.upto (X m c) (W m c) (⟨n / 10080, by omega⟩ : Fin 2) cc
          (BitVec.ofNat 32 (n / 252 % 40 * 1000 + v.val)) ((n % 252 + 1) * 1920) := by
  induction n using Nat.strong_induction_on with
  | _ n ih =>
    intro h hN v cc
    have ec : ((grid0.coords (⟨n, h⟩ : Fin cfg0.N)) 1).val = n / 252 % 40 :=
      (KBlocks.idx_facts ⟨n, h⟩).2.2.2.2.2.2.2.2.2
    -- this point's two input blocks are points 1920·(n % 252) … of batch n / 10080
    have hs := Cert.Pool.block_sum (X m c) (W m c) (⟨n / 10080, by omega⟩ : Fin 2) cc (n / 252 % 40) (n % 252 * 1920)
      (by omega) (fun k => iblk m c 1 ⟨n, h⟩ (ix3 (0 : Fin 1) k (0 : Fin 1))) (fun k => iblk m c 0 ⟨n, h⟩ (ix3 (0 : Fin 1) k cc))
      v.val (fun k => iblk1_apply m c hin ⟨n, h⟩ hN k) (fun k => iblk0_apply m c hin ⟨n, h⟩ hN k cc)
    beta_reduce at hs
    rw [show (n % 252 + 1) * 1920 = n % 252 * 1920 + 1920 by omega, Cert.Pool.upto_block, ← hs]
    by_cases h0 : n % 252 = 0
    · -- a tile's first point block: zeros, plus one block of points
      have e1 := outsAt0_A m c ⟨n, h⟩ h0
      have e2 := KPieces.out_A (F := Ideal) c (grid0.coords ⟨n, h⟩) (ms0_0 ⟨n, h⟩) (hs0_0 ⟨n, h⟩) (ms0_1 ⟨n, h⟩)
        (hs0_1 ⟨n, h⟩) (ms0_2 ⟨n, h⟩) (hs0_2 ⟨n, h⟩) ((hcond0_0 ⟨n, h⟩).mpr h0) (iblk m c 0 ⟨n, h⟩) (iblk m c 1 ⟨n, h⟩)
      have e3 := KPay.pay2_apply (grid0.coords ⟨n, h⟩) (iblk m c 1 ⟨n, h⟩) (iblk m c 0 ⟨n, h⟩) (k0_pay1 (F := Ideal)) v cc
      rw [ec] at e3
      refine (congrFun (e1.trans e2) _).trans (e3.trans ?_)
      have hz : Cert.Pool.upto (X m c) (W m c) (⟨n / 10080, by omega⟩ : Fin 2) cc
          (BitVec.ofNat 32 (n / 252 % 40 * 1000 + v.val)) (n % 252 * 1920) = 0 := by
        rw [show n % 252 * 1920 = 0 by omega]
        exact Cert.Pool.upto_zero _ _ _ _ _
      rw [KPay.pay1_apply, hz]
    · -- a later point block: what the point before left (same batch, same tile), plus one more block of points
      have e1 := outsAt0_B m c ⟨n, h⟩ h0
      have e2 := KPieces.out_B (F := Ideal) c (grid0.coords ⟨n, h⟩) (ms0_0 ⟨n, h⟩) (hs0_0 ⟨n, h⟩) (ms0_1 ⟨n, h⟩)
        (hs0_1 ⟨n, h⟩) (ms0_2 ⟨n, h⟩) (hs0_2 ⟨n, h⟩) (fun hc => h0 ((hcond0_0 ⟨n, h⟩).mp hc)) (iblk m c 0 ⟨n, h⟩)
        (iblk m c 1 ⟨n, h⟩) (outsAt0 m c (n - 1) (Nat.lt_of_le_of_lt (Nat.sub_le _ _) h))
      have e3 := KPay.pay2_apply (grid0.coords ⟨n, h⟩) (iblk m c 1 ⟨n, h⟩) (iblk m c 0 ⟨n, h⟩)
        (outsAt0 m c (n - 1) (Nat.lt_of_le_of_lt (Nat.sub_le _ _) h)) v cc
      rw [ec] at e3
      refine (congrFun (e1.trans e2) _).trans (e3.trans ?_)
      have hp := ih (n - 1) (by omega) (Nat.lt_of_le_of_lt (Nat.sub_le _ _) h) (by omega) v cc
      rw [hp]
      have a1 : (n - 1) / 10080 = n / 10080 := by omega
      have a2 : (n - 1) / 252 % 40 = n / 252 % 40 := by omega
      have a3 : ((n - 1) % 252 + 1) * 1920 = n % 252 * 1920 := by omega
      simp only [a1, a2, a3]

end Cert.KernelIdeal.KInv

end
-- ==== Proof.KTail.lean ====
/-
  The last two steps of the kernel program, read at one entry.

  The pooled array is batch × cell × channel, with 40000 = 200 · 200 cells per batch numbered row by row: cell
  `200 · x + y` is the grid's `(x, y)`. Viewing it as batch × 200 × 200 × channel keeps every entry's row-major
  position, so entry `(b, x, y, c)` of the view is entry `(b, 200 · x + y, c)` of the array:
  `((b · 200 + x) · 200 + y) · 64 + c = (b · 40000 + (200 · x + y)) · 64 + c`. Moving the channel axis in front of
  the two grid axes then puts that entry at `(b, c, x, y)`.
-/
import proofs.«142708_j78486232367648_1_alg».proof.KernelIdeal
import Idealize.ShloMosaic.Lib.ValueIdx
import Idealize.ShloMosaic.Lib.Pipeline.Value

namespace Cert.KernelIdeal.KTail

open Idealize.ShloMosaic Idealize.ShloMosaic.ValueIdx Cert.KernelIdeal

/-- The pooled batch × cell × channel array, viewed batch × 200 × 200 × channel and with the channel axis moved in
    front of the two grid axes, holds at (b, c, x, y) the pooled entry of batch b, cell 200·x + y, channel c. -/
theorem tail_apply {α : Type} (A : S2x40000x64.Idx → α)
    (h1 : S2x40000x64.ShapeCasts S2x200x200x64) (h2 : S2x200x200x64.Transposes [0, 3, 1, 2] S2x64x200x200)
    (b : Fin 2) (c : Fin 64) (x y : Fin 200) :
    transpose S2x64x200x200 [0, 3, 1, 2] (shapeCast S2x200x200x64 A h1) h2 (ix4 b c x y)
      = A (ix3 b ⟨x.val * 200 + y.val, by have := x.isLt; have := y.isLt; omega⟩ c) := by
  -- result axes 0, 1, 2, 3 read source axes 0, 3, 1, 2: batch, channel, grid row, grid column
  refine (transpose_apply [0, 3, 1, 2] _ h2 (ix4 b c x y) (ix4 b x y c) fun a => ?_).trans ?_
  · match a with
    | ⟨0, _⟩ => rfl
    | ⟨1, _⟩ => rfl
    | ⟨2, _⟩ => rfl
    | ⟨3, _⟩ => rfl
  -- the view keeps the row-major position
  refine shapeCast_apply A h1 (ix4 b x y c) _ ?_
  rw [Shape.rowMajor_val_three, Shape.rowMajor_val_four]
  show (b.val * 40000 + (x.val * 200 + y.val)) * 64 + c.val = ((b.val * 200 + x.val) * 200 + y.val) * 64 + c.val
  omega

end Cert.KernelIdeal.KTail
-- ==== Proof.KChain.lean ====
/-
  The word the kernel's region is given for a point: the point's voxel number when it is valid, and −1 otherwise.
-/
import proofs.«142708_j78486232367648_1_alg».proof.Proof.KTerm
import Idealize.ShloMosaic.Lib.ValueIdx

namespace Cert.KernelIdeal.KChain

open Idealize.ShloMosaic Idealize.ShloMosaic.ValueIdx Cert.KernelIdeal

variable {F : FTy → Type} [FloatOps F] [Cert.KernelIdeal.Facts]

/-- The selection read at one point: a one-bit condition that is 1 picks the voxel number, any other picks −1. -/
theorem seg_apply (g : FVec F S2x6x48x28x60x3 .f32) (b : Fin 2) (p : Fin 483840) :
    KTerm.seg g (ix2 b p)
      = if KTerm.valid g (ix2 b p) = 1#1 then KTerm.rank g (ix2 b p) else 4294967295#32 := by
  have e : KTerm.seg g (ix2 b p)
      = Scalar.select (KTerm.valid g (ix2 b p)) (KTerm.rank g (ix2 b p)) 4294967295#32 := rfl
  rw [e]
  by_cases hv : KTerm.valid g (ix2 b p) = 1#1
  · rw [if_pos hv, hv, select_one]
  · rw [if_neg hv, eq_zero_of_ne_one hv, select_zero]

end Cert.KernelIdeal.KChain
-- ==== Proof.KFinal.lean ====
/-
  The kernel's run, read as a value.

  On each core the region's output array, batch × cell × channel, ends holding at (b, V, c) the sum over batch b's
  points of channel c of the points whose word is the cell number V: the block of batch b and tile V / 1000 is
  written back after the tile's last point block, when the running sum has taken in all 483840 points, and these
  blocks tile the array. The two host steps after the region view it as batch × 200 × 200 × channel and move the
  channel axis forward, so the result at (b, c, x, y) is the pooled entry (b, 200·x + y, c): the specification's
  sum, a point's word being its voxel number when it is valid and −1 otherwise.
-/
import proofs.«142708_j78486232367648_1_alg».proof.Proof.KInv
import proofs.«142708_j78486232367648_1_alg».proof.Proof.KTail
import proofs.«142708_j78486232367648_1_alg».proof.Proof.KChain
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.KFinal

open Cert.KernelIdeal Cert.KernelIdeal.Gen Cert.KernelIdeal.KInv

variable (m : (ℓ : Loc nD τ sig) → Buf (Elt Ideal) ℓ) (ρ : Dev nD → PrngReg)

/-- The pooled entry of batch `b`, cell number `V`, channel `cc`. -/
def pooledAt (c : Dev nD) (b : Fin 2) (V : Fin 40000) (cc : Fin 64) : EReal :=
  ∑ p : Fin 483840, if W m c (ix2 b p) = BitVec.ofNat 32 V.val then X m c (ix3 b p cc) else 0

/-- The pooled array. -/
def pooledK (c : Dev nD) : S2x40000x64.Idx → EReal := fun i => pooledAt m c (i 0) (i 1) (i 2)

/-- What a tile's last point block writes back is the tile's block of the pooled array. -/
theorem flushed_eq (c : Dev nD) (hin : Inputs m c) (t : Fin cfg0.N) (hf : (cfg0.win 2).flush t = true) :
    (dats m 0 c).flushed 2 t = ((cfg0.win 2).blk t).view.read (Elt Ideal) (pooledK m c) := by
  have h251 : t.val % 252 = 251 := (flush0_2 t).mp hf
  have hN : t.val < 20160 := lt_of_lt_of_eq t.isLt N_0
  show (cfg0.win 2).cut (grid0.coords t) ((dats m 0 c).after 2 t) = _
  rw [after0_2]
  funext y
  obtain ⟨u, v, cc, rfl⟩ : ∃ (u : Fin 1) (v : Fin 1000) (cc : Fin 64), y = ix3 u v cc := ⟨y 0, y 1, y 2, eq_ix3 y⟩
  obtain rfl : u = 0 := Subsingleton.elim _ _
  refine Eq.trans ?_ (KBlocks.read2 (F := Ideal) (pooledK m c) t v cc).symm
  show outsAt0 m c t.val t.isLt (ix3 (0 : Fin 1) v cc) = _
  rw [KInv.outsAt_eq m c hin t.val t.isLt hN v cc, show (t.val % 252 + 1) * 1920 = 483840 by omega, Cert.Pool.upto_all]
  rfl

/-- The write-backs tile the output array, so it ends as the pooled array. -/
theorem final (c : Dev nD) (hin : Inputs m c) : (dats m 0 c).arrAt 2 cfg0.N = pooledK m c :=
  (dats m 0 c).arrAt_eq_of_cover 2 (pooledK m c) (flushed_eq m c hin) fun i => by
    obtain ⟨b, V, cc, rfl⟩ : ∃ (b : Fin 2) (V : Fin 40000) (cc : Fin 64), i = ix3 b V cc := ⟨i 0, i 1, i 2, eq_ix3 i⟩
    obtain ⟨t, h251, _, _, hmem⟩ := KBlocks.cover2 b V cc
    exact ⟨t, (flush0_2 t).mpr h251, hmem⟩

/-- The result array: the pooled array viewed batch × 200 × 200 × channel, channel axis moved forward. -/
def outK (c : Dev nD) : S2x64x200x200.Idx → EReal :=
  transpose S2x64x200x200 [0, 3, 1, 2] (shapeCast S2x200x200x64 (pooledK m c) shapeCasts_S2x40000x64_S2x200x200x64)
    transposes_S2x200x200x64_S2x64x200x200_0_3_1_2

/-- The two host steps after the region, applied to the region's output array. -/
theorem tail_eq (c : Dev nD) (hin : Inputs m c) :
    Pipeline.afterTail₀ cfgs (dats m) 0 (V0 m) [hostOps1] c main_v35 = outK m c := by
  unfold Pipeline.afterTail₀
  show StableHlo.after hostOps1 _ (Proc.devRef .tc main_v35) = _
  after_results
  rw [show Pipeline.withArrays spec0 c (V0 m c) (fun w => (dats m 0 c).arrAt w cfg0.N) (Proc.devRef .tc main_v33) = pooledK m c
    from (Pipeline.withArrays_arr spec0 launch0.win.arr_inj c _ _ 2).trans (final m c hin)]
  rfl

/-- The result at (b, c, x, y) is the specification's sum. -/
theorem outK_apply (c : Dev nD) (b : Fin 2) (cc : Fin 64) (x y : Fin 200) :
    outK m c (ix4 b cc x y)
      = Cert.Pool.pool (X m c) (KTerm.valid (F := Ideal) (m ((c : Thread nD τ).loc main_arg1)))
          (KTerm.rank (F := Ideal) (m ((c : Thread nD τ).loc main_arg1))) b cc x y := by
  unfold outK
  rw [KTail.tail_apply]
  exact Cert.Pool.pool_of_word (X m c) (W m c) b cc _ _ (fun b' p => KChain.seg_apply _ b' p) x y

/-- The kernel's run with its result named: the result array at `outK`, the arguments unchanged. -/
theorem run (hin : ∀ c, Inputs m c) : θ_run defs (onTc (τ := τ) (main (F := Ideal))) ⟨m, fun _ => 0, ρ⟩ (fun r => ∀ c : Dev nD,
      r.2.mem ((c.tc : Thread nD τ).loc main_v35) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v35 (Pipeline.mem_restRefs_of main_v35 (by decide) (by decide))).trans (tail_eq m c (hin c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KFinal

end
-- ==== Proof.KHost.lean ====
/-
  The kernel program's two host-computed input arrays of its one region, read off the list of host operations
  that precede the region: the features regrouped as batch × point × channel, and one word per point — the
  point's cell number when it is valid, −1 otherwise — regrouped as batch × point × 1.
-/
import proofs.«142708_j78486232367648_1_alg».proof.Proof.Gen.KernelIdeal.Launch
import proofs.«142708_j78486232367648_1_alg».proof.Proof.KTerm
import Idealize.ShloMosaic.Lib.StableHlo.Run

noncomputable section

namespace Cert.KernelIdeal.KHost

open Idealize.ShloMosaic Idealize.ShloMosaic.TcCoe Idealize.SL.Sem Cert.KernelIdeal Cert.KernelIdeal.Gen

variable {F : FTy → Type} [FloatOps F]

/-- The region's first input array: the features as batch × point × channel. -/
theorem feat_at (m : (ℓ : Loc nD τ sig) → Buf (Elt F) ℓ) (c : Dev nD) :
    StableHlo.after (List.flatten [hostOps0, hostOps0_1, hostOps0_2]) (fun b => m (c, b)) (Proc.devRef .tc main_v32)
      = KTerm.feat (m ((c : Thread nD τ).loc main_arg0)) := by
  simp only [hostOps0, hostOps0_1, hostOps0_2, List.flatten_cons, List.flatten_nil, List.append_nil, List.cons_append,
    List.nil_append]
  after_results_simp
  rfl

/-- A fold over two lists in a row is the fold over the second after the fold over the first. -/
theorem after_append' {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by
    rw [List.cons_append, StableHlo.after_cons, StableHlo.after_cons, after_append' l₁ l₂]
/-! The word array is computed in three stretches: the long chain that computes each point's validity and rank,
the three operations of the inlined selection (rank where valid, the constant −1 elsewhere), and the final
regrouping. The first stretch is read once per intermediate array; the selection is then read over a valuation
known only through those arrays. -/

section Stretch0

variable (m : (ℓ : Loc nD τ sig) → Buf (Elt F) ℓ) (c : Dev nD)

theorem valid_at0 :
    StableHlo.after hostOps0 (fun b => m (c, b)) (Proc.devRef .tc main_v17)
      = KTerm.valid (m ((c : Thread nD τ).loc main_arg1)) := by
  simp only [hostOps0]
  after_results_simp
  rfl

theorem rank_at0 :
    StableHlo.after hostOps0 (fun b => m (c, b)) (Proc.devRef .tc main_v29)
      = KTerm.rank (m ((c : Thread nD τ).loc main_arg1)) := by
  simp only [hostOps0]
  after_results_simp
  rfl

theorem minusOne_at0 :
    StableHlo.after hostOps0 (fun b => m (c, b)) (Proc.devRef .tc main_c_6)
      = (constantI S_ 32 4294967295#32 : IVec S_ 32) := by
  simp only [hostOps0]
  after_results_simp

end Stretch0

/-- The selection and the regrouping, over any contents `W` of the buffers before them: the word array is the
    regrouped choice, point by point, between the rank array and the constant. -/
theorem where_stretch (W : Valuation τ sig (Elt F)) :
    StableHlo.after (hostOps0_1 ++ hostOps0_2) W (Proc.devRef .tc main_v31)
      = shapeCast S2x483840x1
          (select (W (Proc.devRef .tc main_v17) : IVec S2x483840 1) (W (Proc.devRef .tc main_v29) : IVec S2x483840 32)
            (broadcastInDim S2x483840 ![] bcast_S_S2x483840 (id (W (Proc.devRef .tc main_c_6) : IVec S_ 32))))
          shapeCasts_S2x483840_S2x483840x1 := rfl

/-- The region's second input array: one word per point, as batch × point × 1. -/
theorem seg_at (m : (ℓ : Loc nD τ sig) → Buf (Elt F) ℓ) (c : Dev nD) :
    StableHlo.after (List.flatten [hostOps0, hostOps0_1, hostOps0_2]) (fun b => m (c, b)) (Proc.devRef .tc main_v31)
      = shapeCast S2x483840x1 (KTerm.seg (m ((c : Thread nD τ).loc main_arg1))) shapeCasts_S2x483840_S2x483840x1 := by
  have hflat : List.flatten [hostOps0 (F := F), hostOps0_1, hostOps0_2] = hostOps0 ++ (hostOps0_1 ++ hostOps0_2) := by
    simp only [List.flatten_cons, List.flatten_nil, List.append_nil]
  rw [hflat, after_append', where_stretch, valid_at0 m c, rank_at0 m c, minusOne_at0 m c]
  unfold KTerm.seg
  rfl

end Cert.KernelIdeal.KHost

end
-- ==== Proof.RefTerm.lean ====
/-
  The reference program's value, named piece by piece as a function of its two argument arrays.

  From the geometry array: each point's voxel coordinates `vox` (the point's position minus the grid's lower
  corner, divided by the cell size, truncated to an integer); `valid`, whether all three coordinates lie inside
  the 200 × 200 × 1 grid; `rank`, the voxel's row-major number 200·i + j + k; and `seg`, the segment a point is
  added into: its rank offset by 40000 times its batch, or the spare segment 80000 when it is not valid.
  From both: `res`, the features summed per segment, the spare segment dropped, laid out as
  batch × channel × 200 × 200.
-/
import proofs.«142708_j78486232367648_1_alg».proof.ReferenceIdeal

noncomputable section

namespace Cert.ReferenceIdeal.RefTerm

open Idealize.ShloMosaic Cert.ReferenceIdeal Cert.ReferenceIdeal.Facts₀ Cert.ReferenceIdeal.Facts

variable {F : FTy → Type} [FloatOps F] [Cert.ReferenceIdeal.Facts]

/-- The cell sizes (0.5, 0.5, 20), one per coordinate. -/
def cell : FVec F S3 .f32 := fun i => FloatOps.ofBits .f32 (lit0 (S3.rowMajor i))

/-- The grid's lower corner: the first cell's centre (−49.75, −49.75, 0) minus half a cell. -/
def corner : FVec F S3 .f32 :=
  subf (fun i => FloatOps.ofBits .f32 (lit1 (S3.rowMajor i)))
    (Host.divf (cell (F := F)) (broadcastInDim S3 ![] bcast_S_S3 (constant S_ .f32 0x40000000#32)))

/-- Every point's three voxel coordinates: (position − corner) / cell size, truncated to an integer. -/
def vox (g : FVec F S2x6x48x28x60x3 .f32) : IVec S2x483840x3 32 :=
  shapeCast S2x483840x3
    (fptosi 32
      (Host.divf
        (subf g
          (broadcastInDim S2x6x48x28x60x3 ![0, 1, 2, 3, 4, 5] bcast_S1x1x1x1x1x3_S2x6x48x28x60x3_0_1_2_3_4_5
            (broadcastInDim S1x1x1x1x1x3 ![5] bcast_S3_S1x1x1x1x1x3_5 (corner (F := F)))))
        (broadcastInDim S2x6x48x28x60x3 ![0, 1, 2, 3, 4, 5] bcast_S1x1x1x1x1x3_S2x6x48x28x60x3_0_1_2_3_4_5
          (broadcastInDim S1x1x1x1x1x3 ![5] bcast_S3_S1x1x1x1x1x3_5 (cell (F := F))))))
    shapeCasts_S2x6x48x28x60x3_S2x483840x3

/-- A point is valid when each coordinate is at least 0 and below the grid's extent (200, 200, 1) on its axis. -/
def valid (g : FVec F S2x6x48x28x60x3 .f32) : IVec S2x483840 1 :=
  Host.reduce IntOp.andi
    (andi
      (cmpi .sge (vox g) (broadcastInDim S2x483840x3 ![] bcast_S_S2x483840x3 (constantI S_ 32 0#32)))
      (cmpi .slt (vox g)
        (broadcastInDim S2x483840x3 ![0, 1, 2] bcast_S1x1x3_S2x483840x3_0_1_2
          (broadcastInDim S1x1x3 ![2] bcast_S3_S1x1x3_2 (fun i => lit2 (S3.rowMajor i))))))
    (constantI S_ 1 1#1) reducesTo_S2x483840x3_S2x483840_d2 h_S_

/-- Coordinate `k` of every point, as a batch × point array. -/
def coord0 (g : FVec F S2x6x48x28x60x3 .f32) : IVec S2x483840 32 :=
  shapeCast S2x483840 (extractStridedSlice S2x483840x1 ![0, 0, 0] (vox g) slices_S2x483840x3_S2x483840x1_0_0_0)
    shapeCasts_S2x483840x1_S2x483840
def coord1 (g : FVec F S2x6x48x28x60x3 .f32) : IVec S2x483840 32 :=
  shapeCast S2x483840 (extractStridedSlice S2x483840x1 ![0, 0, 1] (vox g) slices_S2x483840x3_S2x483840x1_0_0_1)
    shapeCasts_S2x483840x1_S2x483840
def coord2 (g : FVec F S2x6x48x28x60x3 .f32) : IVec S2x483840 32 :=
  shapeCast S2x483840 (extractStridedSlice S2x483840x1 ![0, 0, 2] (vox g) slices_S2x483840x3_S2x483840x1_0_0_2)
    shapeCasts_S2x483840x1_S2x483840

/-- The voxel's row-major number in the 200 × 200 × 1 grid: 200·i + 1·j + k, in 32-bit arithmetic. -/
def rank (g : FVec F S2x6x48x28x60x3 .f32) : IVec S2x483840 32 :=
  addi
    (addi
      (muli (coord0 g) (broadcastInDim S2x483840 ![] bcast_S_S2x483840 (constantI S_ 32 200#32)))
      (muli (coord1 g) (broadcastInDim S2x483840 ![] bcast_S_S2x483840 (constantI S_ 32 1#32))))
    (coord2 g)

/-- The segment each point is summed into: its rank plus 40000 times its batch when valid, the spare segment
    80000 otherwise. -/
def seg (g : FVec F S2x6x48x28x60x3 .f32) : IVec S2x483840 32 :=
  select (valid g)
    (addi (rank g)
      (broadcastInDim S2x483840 ![0, 1] bcast_S2x1_S2x483840_0_1
        (muli (broadcastInDim S2x1 ![0] bcast_S2_S2x1_0 (iotaInDim S2 32 0))
          (broadcastInDim S2x1 ![] bcast_S_S2x1 (constantI S_ 32 40000#32)))))
    (broadcastInDim S2x483840 ![] bcast_S_S2x483840 (id (constantI S_ 32 80000#32)))

/-- The features as batch × point × channel. -/
def feat (x : FVec F S2x6x48x28x60x64 .f32) : FVec F S2x483840x64 .f32 :=
  shapeCast S2x483840x64 x shapeCasts_S2x6x48x28x60x64_S2x483840x64

/-- The per-segment sums: 80001 segments of 64 channels, starting from zero, every point of every batch added
    into its segment's row. -/
def pooled (x : FVec F S2x6x48x28x60x64 .f32) (g : FVec F S2x6x48x28x60x3 .f32) : FVec F S80001x64 .f32 :=
  Host.scatterAdd scatter_S80001x64_S967680x1_S967680x64_1_0_0_1
    (broadcastInDim S80001x64 ![] bcast_S_S80001x64 (constant S_ .f32 0x00000000#32))
    (broadcastInDim S967680x1 ![0] bcast_S967680_S967680x1_0 (shapeCast S967680 (seg g) shapeCasts_S2x483840_S967680))
    (shapeCast S967680x64 (feat x) shapeCasts_S2x483840x64_S967680x64)

/-- The result: the first 80000 segments as batch × 200 × 200 × 1 × channel, the channel axis moved in front of
    the two grid axes, the unit axis merged away. -/
def res (x : FVec F S2x6x48x28x60x64 .f32) (g : FVec F S2x6x48x28x60x3 .f32) : FVec F S2x64x200x200 .f32 :=
  shapeCast S2x64x200x200
    (transpose S2x1x64x200x200 [0, 3, 4, 1, 2]
      (shapeCast S2x200x200x1x64
        (extractStridedSlice S80000x64 ![0, 0] (pooled x g) slices_S80001x64_S80000x64_0_0)
        shapeCasts_S80000x64_S2x200x200x1x64)
      transposes_S2x200x200x1x64_S2x1x64x200x200_0_3_4_1_2)
    shapeCasts_S2x1x64x200x200_S2x64x200x200

end Cert.ReferenceIdeal.RefTerm

end
-- ==== Proof.RefRun.lean ====
/-
  The reference program's run: its main function as a straight line of host operations, and what every weakly
  fair execution of it leaves in memory.

  The main function is sixty operations once its one call is read as the callee's body at the call site: the
  callee converts the scalar 80000 to its own type (the identity), broadcasts it over batch × point and selects,
  point by point, between the offset rank and that spare segment. Every operation writes one buffer of its own
  from buffers written before it, so the memory after the line is the fold of the operations' results over the
  launch contents. Read at the result buffer, that fold is the composed term "RefTerm.res" of the two argument
  arrays, one named piece per stretch of the line; read at an argument buffer, which no operation writes, it is
  the launch contents.
-/
import proofs.«142708_j78486232367648_1_alg».proof.ReferenceIdeal
import proofs.«142708_j78486232367648_1_alg».proof.Proof.RefTerm
import Idealize.ShloMosaic.Lib.StableHlo.Run
import Idealize.ShloMosaic.Lib.Pipeline.Frame

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-! ## The main function as five stretches of operations -/

/-- Operations 1 to 16: the cell sizes, the grid's lower corner, every point's voxel coordinates, and the features
    as batch × point × channel. -/
abbrev opsA : List (HloOp τ sig (Elt F)) :=
  [ nullary main_cst (fun i => FloatOps.ofBits .f32 (lit0 (S3.rowMajor i))),
    nullary main_cst_0 (fun i => FloatOps.ofBits .f32 (lit1 (S3.rowMajor i))),
    nullary main_c (fun i => lit2 (S3.rowMajor i)),
    nullary main_cst_1 (constant S_ .f32 0x40000000#32),
    unary main_cst_1 main_v0 (broadcastInDim S3 ![] bcast_S_S3 : (⟨S_, .f32⟩ : BufTy).Contents (Elt F) → (⟨S3, .f32⟩ : BufTy).Contents (Elt F)),
    binary main_cst main_v0 main_v1 (Host.divf : (⟨S3, .f32⟩ : BufTy).Contents (Elt F) → (⟨S3, .f32⟩ : BufTy).Contents (Elt F) → (⟨S3, .f32⟩ : BufTy).Contents (Elt F)),
    binary main_cst_0 main_v1 main_v2 (subf : (⟨S3, .f32⟩ : BufTy).Contents (Elt F) → (⟨S3, .f32⟩ : BufTy).Contents (Elt F) → (⟨S3, .f32⟩ : BufTy).Contents (Elt F)),
    unary main_v2 main_v3 (broadcastInDim S1x1x1x1x1x3 ![5] bcast_S3_S1x1x1x1x1x3_5 : (⟨S3, .f32⟩ : BufTy).Contents (Elt F) → (⟨S1x1x1x1x1x3, .f32⟩ : BufTy).Contents (Elt F)),
    unary main_v3 main_v4 (broadcastInDim S2x6x48x28x60x3 ![0, 1, 2, 3, 4, 5] bcast_S1x1x1x1x1x3_S2x6x48x28x60x3_0_1_2_3_4_5 : (⟨S1x1x1x1x1x3, .f32⟩ : BufTy).Contents (Elt F) → (⟨S2x6x48x28x60x3, .f32⟩ : BufTy).Contents (Elt F)),
    binary main_arg1 main_v4 main_v5 (subf : (⟨S2x6x48x28x60x3, .f32⟩ : BufTy).Contents (Elt F) → (⟨S2x6x48x28x60x3, .f32⟩ : BufTy).Contents (Elt F) → (⟨S2x6x48x28x60x3, .f32⟩ : BufTy).Contents (Elt F)),
    unary main_cst main_v6 (broadcastInDim S1x1x1x1x1x3 ![5] bcast_S3_S1x1x1x1x1x3_5 : (⟨S3, .f32⟩ : BufTy).Contents (Elt F) → (⟨S1x1x1x1x1x3, .f32⟩ : BufTy).Contents (Elt F)),
    unary main_v6 main_v7 (broadcastInDim S2x6x48x28x60x3 ![0, 1, 2, 3, 4, 5] bcast_S1x1x1x1x1x3_S2x6x48x28x60x3_0_1_2_3_4_5 : (⟨S1x1x1x1x1x3, .f32⟩ : BufTy).Contents (Elt F) → (⟨S2x6x48x28x60x3, .f32⟩ : BufTy).Contents (Elt F)),
    binary main_v5 main_v7 main_v8 (Host.divf : (⟨S2x6x48x28x60x3, .f32⟩ : BufTy).Contents (Elt F) → (⟨S2x6x48x28x60x3, .f32⟩ : BufTy).Contents (Elt F) → (⟨S2x6x48x28x60x3, .f32⟩ : BufTy).Contents (Elt F)),
    unary main_v8 main_v9 (fptosi 32 : (⟨S2x6x48x28x60x3, .f32⟩ : BufTy).Contents (Elt F) → (⟨S2x6x48x28x60x3, .i32⟩ : BufTy).Contents (Elt F)),
    reshape main_v9 main_v10 rfl shapeCasts_S2x6x48x28x60x3_S2x483840x3,
    reshape main_arg0 main_v11 rfl shapeCasts_S2x6x48x28x60x64_S2x483840x64 ]

/-- Operations 17 to 25: which points are valid. -/
abbrev opsB : List (HloOp τ sig (Elt F)) :=
  [ nullary main_c_2 (constantI S_ 32 0#32),
    unary main_c_2 main_v12 (broadcastInDim S2x483840x3 ![] bcast_S_S2x483840x3 : (⟨S_, .i32⟩ : BufTy).Contents (Elt F) → (⟨S2x483840x3, .i32⟩ : BufTy).Contents (Elt F)),
    binary main_v10 main_v12 main_v13 (cmpi .sge : (⟨S2x483840x3, .i32⟩ : BufTy).Contents (Elt F) → (⟨S2x483840x3, .i32⟩ : BufTy).Contents (Elt F) → (⟨S2x483840x3, .i1⟩ : BufTy).Contents (Elt F)),
    unary main_c main_v14 (broadcastInDim S1x1x3 ![2] bcast_S3_S1x1x3_2 : (⟨S3, .i32⟩ : BufTy).Contents (Elt F) → (⟨S1x1x3, .i32⟩ : BufTy).Contents (Elt F)),
    unary main_v14 main_v15 (broadcastInDim S2x483840x3 ![0, 1, 2] bcast_S1x1x3_S2x483840x3_0_1_2 : (⟨S1x1x3, .i32⟩ : BufTy).Contents (Elt F) → (⟨S2x483840x3, .i32⟩ : BufTy).Contents (Elt F)),
    binary main_v10 main_v15 main_v16 (cmpi .slt : (⟨S2x483840x3, .i32⟩ : BufTy).Contents (Elt F) → (⟨S2x483840x3, .i32⟩ : BufTy).Contents (Elt F) → (⟨S2x483840x3, .i1⟩ : BufTy).Contents (Elt F)),
    binary main_v13 main_v16 main_v17 (andi : (⟨S2x483840x3, .i1⟩ : BufTy).Contents (Elt F) → (⟨S2x483840x3, .i1⟩ : BufTy).Contents (Elt F) → (⟨S2x483840x3, .i1⟩ : BufTy).Contents (Elt F)),
    nullary main_c_3 (constantI S_ 1 1#1),
    binary main_v17 main_c_3 main_v18 ((fun x v => Host.reduce IntOp.andi x v reducesTo_S2x483840x3_S2x483840_d2 h_S_) : (⟨S2x483840x3, .i1⟩ : BufTy).Contents (Elt F) → (⟨S_, .i1⟩ : BufTy).Contents (Elt F) → (⟨S2x483840, .i1⟩ : BufTy).Contents (Elt F)) ]

/-- Operations 26 to 39: each point's voxel number. -/
abbrev opsC : List (HloOp τ sig (Elt F)) :=
  [ unary main_v10 main_v19 ((extractStridedSlice S2x483840x1 ![0, 0, 0] · slices_S2x483840x3_S2x483840x1_0_0_0) : (⟨S2x483840x3, .i32⟩ : BufTy).Contents (Elt F) → (⟨S2x483840x1, .i32⟩ : BufTy).Contents (Elt F)),
    reshape main_v19 main_v20 rfl shapeCasts_S2x483840x1_S2x483840,
    nullary main_c_4 (constantI S_ 32 200#32),
    unary main_c_4 main_v21 (broadcastInDim S2x483840 ![] bcast_S_S2x483840 : (⟨S_, .i32⟩ : BufTy).Contents (Elt F) → (⟨S2x483840, .i32⟩ : BufTy).Contents (Elt F)),
    binary main_v20 main_v21 main_v22 (muli : (⟨S2x483840, .i32⟩ : BufTy).Contents (Elt F) → (⟨S2x483840, .i32⟩ : BufTy).Contents (Elt F) → (⟨S2x483840, .i32⟩ : BufTy).Contents (Elt F)),
    unary main_v10 main_v23 ((extractStridedSlice S2x483840x1 ![0, 0, 1] · slices_S2x483840x3_S2x483840x1_0_0_1) : (⟨S2x483840x3, .i32⟩ : BufTy).Contents (Elt F) → (⟨S2x483840x1, .i32⟩ : BufTy).Contents (Elt F)),
    reshape main_v23 main_v24 rfl shapeCasts_S2x483840x1_S2x483840,
    nullary main_c_5 (constantI S_ 32 1#32),
    unary main_c_5 main_v25 (broadcastInDim S2x483840 ![] bcast_S_S2x483840 : (⟨S_, .i32⟩ : BufTy).Contents (Elt F) → (⟨S2x483840, .i32⟩ : BufTy).Contents (Elt F)),
    binary main_v24 main_v25 main_v26 (muli : (⟨S2x483840, .i32⟩ : BufTy).Contents (Elt F) → (⟨S2x483840, .i32⟩ : BufTy).Contents (Elt F) → (⟨S2x483840, .i32⟩ : BufTy).Contents (Elt F)),
    binary main_v22 main_v26 main_v27 (addi : (⟨S2x483840, .i32⟩ : BufTy).Contents (Elt F) → (⟨S2x483840, .i32⟩ : BufTy).Contents (Elt F) → (⟨S2x483840, .i32⟩ : BufTy).Contents (Elt F)),
    unary main_v10 main_v28 ((extractStridedSlice S2x483840x1 ![0, 0, 2] · slices_S2x483840x3_S2x483840x1_0_0_2) : (⟨S2x483840x3, .i32⟩ : BufTy).Contents (Elt F) → (⟨S2x483840x1, .i32⟩ : BufTy).Contents (Elt F)),
    reshape main_v28 main_v29 rfl shapeCasts_S2x483840x1_S2x483840,
    binary main_v27 main_v29 main_v30 (addi : (⟨S2x483840, .i32⟩ : BufTy).Contents (Elt F) → (⟨S2x483840, .i32⟩ : BufTy).Contents (Elt F) → (⟨S2x483840, .i32⟩ : BufTy).Contents (Elt F)) ]

/-- Operations 40 to 50: each point's segment; the last three are the callee's, over the call's own buffers. -/
abbrev opsD : List (HloOp τ sig (Elt F)) :=
  [ nullary main_v31 (iotaInDim S2 32 0),
    unary main_v31 main_v32 (broadcastInDim S2x1 ![0] bcast_S2_S2x1_0 : (⟨S2, .i32⟩ : BufTy).Contents (Elt F) → (⟨S2x1, .i32⟩ : BufTy).Contents (Elt F)),
    nullary main_c_6 (constantI S_ 32 40000#32),
    unary main_c_6 main_v33 (broadcastInDim S2x1 ![] bcast_S_S2x1 : (⟨S_, .i32⟩ : BufTy).Contents (Elt F) → (⟨S2x1, .i32⟩ : BufTy).Contents (Elt F)),
    binary main_v32 main_v33 main_v34 (muli : (⟨S2x1, .i32⟩ : BufTy).Contents (Elt F) → (⟨S2x1, .i32⟩ : BufTy).Contents (Elt F) → (⟨S2x1, .i32⟩ : BufTy).Contents (Elt F)),
    unary main_v34 main_v35 (broadcastInDim S2x483840 ![0, 1] bcast_S2x1_S2x483840_0_1 : (⟨S2x1, .i32⟩ : BufTy).Contents (Elt F) → (⟨S2x483840, .i32⟩ : BufTy).Contents (Elt F)),
    binary main_v30 main_v35 main_v36 (addi : (⟨S2x483840, .i32⟩ : BufTy).Contents (Elt F) → (⟨S2x483840, .i32⟩ : BufTy).Contents (Elt F) → (⟨S2x483840, .i32⟩ : BufTy).Contents (Elt F)),
    nullary main_c_7 (constantI S_ 32 80000#32),
    TRef.unary (.of main_c_7 : TRef sig ⟨S_, .i32⟩) main_call0.v0 id,
    TRef.unary main_call0.v0 main_call0.v1 (broadcastInDim S2x483840 ![] bcast_S_S2x483840),
    TRef.ternary (.of main_v18 : TRef sig ⟨S2x483840, .i1⟩) (.of main_v36 : TRef sig ⟨S2x483840, .i32⟩) main_call0.v1 main_call0.v2 select ]

/-- Operations 51 to 60: the per-segment sums and their layout as the result. -/
abbrev opsE : List (HloOp τ sig (Elt F)) :=
  [ reshape main_v11 main_v38 rfl shapeCasts_S2x483840x64_S967680x64,
    reshape main_v37 main_v39 rfl shapeCasts_S2x483840_S967680,
    nullary main_cst_8 (constant S_ .f32 0x00000000#32),
    unary main_cst_8 main_v40 (broadcastInDim S80001x64 ![] bcast_S_S80001x64 : (⟨S_, .f32⟩ : BufTy).Contents (Elt F) → (⟨S80001x64, .f32⟩ : BufTy).Contents (Elt F)),
    unary main_v39 main_v41 (broadcastInDim S967680x1 ![0] bcast_S967680_S967680x1_0 : (⟨S967680, .i32⟩ : BufTy).Contents (Elt F) → (⟨S967680x1, .i32⟩ : BufTy).Contents (Elt F)),
    ternary main_v40 main_v41 main_v38 main_v42 ((fun x i u => Host.scatterAdd scatter_S80001x64_S967680x1_S967680x64_1_0_0_1 x i u) : (⟨S80001x64, .f32⟩ : BufTy).Contents (Elt F) → (⟨S967680x1, .i32⟩ : BufTy).Contents (Elt F) → (⟨S967680x64, .f32⟩ : BufTy).Contents (Elt F) → (⟨S80001x64, .f32⟩ : BufTy).Contents (Elt F)),
    unary main_v42 main_v43 ((extractStridedSlice S80000x64 ![0, 0] · slices_S80001x64_S80000x64_0_0) : (⟨S80001x64, .f32⟩ : BufTy).Contents (Elt F) → (⟨S80000x64, .f32⟩ : BufTy).Contents (Elt F)),
    reshape main_v43 main_v44 rfl shapeCasts_S80000x64_S2x200x200x1x64,
    unary main_v44 main_v45 ((transpose S2x1x64x200x200 [0, 3, 4, 1, 2] · transposes_S2x200x200x1x64_S2x1x64x200x200_0_3_4_1_2) : (⟨S2x200x200x1x64, .f32⟩ : BufTy).Contents (Elt F) → (⟨S2x1x64x200x200, .f32⟩ : BufTy).Contents (Elt F)),
    reshape main_v45 main_v46 rfl shapeCasts_S2x1x64x200x200_S2x64x200x200 ]

/-- The main function's sixty operations, in order. -/
abbrev ops : List (HloOp τ sig (Elt F)) := opsA ++ (opsB ++ (opsC ++ (opsD ++ opsE)))

-- sixty sequencing steps re-associated: the rewrite under the chain recurses once per statement
set_option maxRecDepth 1024 in
/-- The main function is that straight line: the callee's definition unfolded at its call and the call's record at
    its fields, both sides are one chain of steps once sequencing is re-associated. -/
theorem main_eq (c : Dev nD) : main (F := F) c = seq ops := by
  simp only [ops, opsA, opsB, opsC, opsD, opsE, List.cons_append, List.nil_append,
    main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own table only. -/
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub ..,
    binary_bufs_sub .., unary_bufs_sub .., unary_bufs_sub .., binary_bufs_sub .., unary_bufs_sub .., unary_bufs_sub ..,
    binary_bufs_sub .., unary_bufs_sub .., reshape_bufs_sub .., reshape_bufs_sub .., nullary_bufs_sub .., unary_bufs_sub ..,
    binary_bufs_sub .., unary_bufs_sub .., unary_bufs_sub .., binary_bufs_sub .., binary_bufs_sub .., nullary_bufs_sub ..,
    binary_bufs_sub .., unary_bufs_sub .., reshape_bufs_sub .., nullary_bufs_sub .., unary_bufs_sub .., binary_bufs_sub ..,
    unary_bufs_sub .., reshape_bufs_sub .., nullary_bufs_sub .., unary_bufs_sub .., binary_bufs_sub .., binary_bufs_sub ..,
    unary_bufs_sub .., reshape_bufs_sub .., binary_bufs_sub .., nullary_bufs_sub .., unary_bufs_sub .., nullary_bufs_sub ..,
    unary_bufs_sub .., binary_bufs_sub .., unary_bufs_sub .., binary_bufs_sub .., nullary_bufs_sub .., unary_bufs_sub ..,
    unary_bufs_sub .., ternary_bufs_sub .., reshape_bufs_sub .., reshape_bufs_sub .., nullary_bufs_sub .., unary_bufs_sub ..,
    unary_bufs_sub .., ternary_bufs_sub .., unary_bufs_sub .., reshape_bufs_sub .., unary_bufs_sub .., reshape_bufs_sub ..⟩

/-! ## What each stretch leaves in the buffers read after it

Each stretch is read from ANY contents "W" of the buffers: the buffers it reads from earlier stretches enter as
hypotheses naming what they hold, so that no lemma carries more than its own operations. The re-indexings, the
reduction, the conversion to integers and the scatter-add stay folded throughout: no equation here looks inside
them. -/

section Stretches

attribute [local irreducible] Host.scatterAdd Host.reduce shapeCast transpose extractStridedSlice broadcastInDim fptosi

/-- After the first stretch the voxel coordinates are those of the geometry array. -/
theorem A_v10 (W : Valuation τ sig (Elt F)) :
    after opsA W (main_v10 : DevRef τ sig) = RefTerm.vox (W (main_arg1 : DevRef τ sig)) := by
  unfold RefTerm.vox RefTerm.corner RefTerm.cell
  after_results_simp
  rfl

/-- After the first stretch the features are the feature array's, as batch × point × channel. -/
theorem A_v11 (W : Valuation τ sig (Elt F)) :
    after opsA W (main_v11 : DevRef τ sig) = RefTerm.feat (W (main_arg0 : DevRef τ sig)) := by
  unfold RefTerm.feat
  after_results_simp
  rfl

/-- After the first stretch the grid's extents are in their buffer. -/
theorem A_c (W : Valuation τ sig (Elt F)) :
    after opsA W (main_c : DevRef τ sig) = fun i => lit2 (S3.rowMajor i) := by
  after_results_simp
  rfl

/-- The second stretch, from voxel coordinates and the grid's extents: which points are valid. -/
theorem B_v18 (W : Valuation τ sig (Elt F)) (g : FVec F S2x6x48x28x60x3 .f32)
    (h10 : W (main_v10 : DevRef τ sig) = RefTerm.vox g)
    (hc : W (main_c : DevRef τ sig) = fun i => lit2 (S3.rowMajor i)) :
    after opsB W (main_v18 : DevRef τ sig) = RefTerm.valid g := by
  unfold RefTerm.valid
  after_results_simp
  rw [h10, hc]

/-- The second stretch writes neither the voxel coordinates nor the features. -/
theorem B_keep_v10 (W : Valuation τ sig (Elt F)) :
    after opsB W (main_v10 : DevRef τ sig) = W (main_v10 : DevRef τ sig) := by
  after_results_simp
theorem B_keep_v11 (W : Valuation τ sig (Elt F)) :
    after opsB W (main_v11 : DevRef τ sig) = W (main_v11 : DevRef τ sig) := by
  after_results_simp

/-- The third stretch, from voxel coordinates: each point's voxel number. -/
theorem C_v30 (W : Valuation τ sig (Elt F)) (g : FVec F S2x6x48x28x60x3 .f32)
    (h10 : W (main_v10 : DevRef τ sig) = RefTerm.vox g) :
    after opsC W (main_v30 : DevRef τ sig) = RefTerm.rank g := by
  unfold RefTerm.rank RefTerm.coord0 RefTerm.coord1 RefTerm.coord2
  after_results_simp
  rw [h10]
  rfl

/-- The third stretch writes neither the validity words nor the features. -/
theorem C_keep_v18 (W : Valuation τ sig (Elt F)) :
    after opsC W (main_v18 : DevRef τ sig) = W (main_v18 : DevRef τ sig) := by
  after_results_simp
theorem C_keep_v11 (W : Valuation τ sig (Elt F)) :
    after opsC W (main_v11 : DevRef τ sig) = W (main_v11 : DevRef τ sig) := by
  after_results_simp

/-- The fourth stretch, from validity and voxel number: each point's segment. The callee's typed buffers are the
    literal ones, so moving a value between a buffer's type and the value's own is the identity. -/
theorem D_v37 (W : Valuation τ sig (Elt F)) (g : FVec F S2x6x48x28x60x3 .f32)
    (h18 : W (main_v18 : DevRef τ sig) = RefTerm.valid g)
    (h30 : W (main_v30 : DevRef τ sig) = RefTerm.rank g) :
    after opsD W (main_v37 : DevRef τ sig) = RefTerm.seg g := by
  unfold RefTerm.seg
  after_results_simp
  simp only [TRef.toBuf, TRef.ofBuf, cast_eq]
  rw [h18, h30]

/-- The fourth stretch does not write the features. -/
theorem D_keep_v11 (W : Valuation τ sig (Elt F)) :
    after opsD W (main_v11 : DevRef τ sig) = W (main_v11 : DevRef τ sig) := by
  after_results_simp

/-- The last stretch, from features and segments: the per-segment sums laid out as the result. -/
theorem E_v46 (W : Valuation τ sig (Elt F)) (x : FVec F S2x6x48x28x60x64 .f32) (g : FVec F S2x6x48x28x60x3 .f32)
    (h11 : W (main_v11 : DevRef τ sig) = RefTerm.feat x)
    (h37 : W (main_v37 : DevRef τ sig) = RefTerm.seg g) :
    after opsE W (main_v46 : DevRef τ sig) = RefTerm.res x g := by
  unfold RefTerm.res RefTerm.pooled
  after_results_simp
  rw [h11, h37]
  rfl

end Stretches

/-! ## The whole line -/

/-- The fold at the result buffer is the composed term of the two argument arrays: stretch by stretch, each
    buffer a stretch reads either written by the stretch before or kept through it. -/
theorem out_eq (V : Valuation τ sig (Elt F)) :
    after ops V (main_v46 : DevRef τ sig)
      = RefTerm.res (V (main_arg0 : DevRef τ sig)) (V (main_arg1 : DevRef τ sig)) := by
  simp only [ops, after_append]
  exact E_v46 _ _ _
    ((D_keep_v11 _).trans ((C_keep_v11 _).trans ((B_keep_v11 _).trans (A_v11 V))))
    (D_v37 _ _
      ((C_keep_v18 _).trans (B_v18 _ _ (A_v10 V) (A_c V)))
      (C_v30 _ _ ((B_keep_v10 _).trans (A_v10 V))))

/-- No operation writes the feature array. -/
theorem arg0_eq (V : Valuation τ sig (Elt F)) :
    after ops V (main_arg0 : DevRef τ sig) = V (main_arg0 : DevRef τ sig) := by
  simp only [ops, opsA, opsB, opsC, opsD, opsE, List.cons_append, List.nil_append]
  after_results_simp

/-- No operation writes the geometry array. -/
theorem arg1_eq (V : Valuation τ sig (Elt F)) :
    after ops V (main_arg1 : DevRef τ sig) = V (main_arg1 : DevRef τ sig) := by
  simp only [ops, opsA, opsB, opsC, opsD, opsE, List.cons_append, List.nil_append]
  after_results_simp

/-- On every device, for any float values, from any memory with zero counters: every weakly fair execution of the
    main function terminates with the result buffer at the composed term of the two argument arrays' launch
    contents, and the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v46)
          = RefTerm.res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v46).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefRead.lean ====
/-
  The reference's result read at one output index, at the exact (extended-real) values: it is the specification's
  sum, over the points of the index's batch, of the index's channel of the valid points in the index's grid cell.

  The result is a re-layout of a scatter-add. The re-layout is read through by row-major positions; the scatter-add
  is, at the exact values, the sum of the updates that land on an element; an update lands where its index word —
  the point's segment — says; and a point's segment is the cell's number offset by its batch exactly when the point
  is valid, of that batch, and in that cell.
-/
import proofs.«142708_j78486232367648_1_alg».proof.Proof.RefTerm
import proofs.«142708_j78486232367648_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefRead

open Idealize.ShloMosaic Idealize.ShloMosaic.ValueIdx Cert.ReferenceIdeal Cert.ReferenceIdeal.Facts₀ Cert.ReferenceIdeal.Facts

variable [Cert.ReferenceIdeal.Facts]

/-! ## The result's layout

The result is the per-segment array with its spare last row cut off, regrouped as batch × 200 × 200 × 1 × channel,
the channel (and unit) axes moved in front of the two grid axes, and the unit axis merged away. A regrouping keeps
the row-major position, so element `(b, c, x, y)` of the result is element `(40000·b + 200·x + y, c)` of the
per-segment array. -/

theorem layout_read {α : Type} (P : S80001x64.Idx → α) (b : Fin 2) (c : Fin 64) (xx y : Fin 200) (s : Fin 80001)
    (hs : s.val = b.val * 40000 + xx.val * 200 + y.val) :
    shapeCast S2x64x200x200
      (transpose S2x1x64x200x200 [0, 3, 4, 1, 2]
        (shapeCast S2x200x200x1x64
          (extractStridedSlice S80000x64 ![0, 0] P slices_S80001x64_S80000x64_0_0)
          shapeCasts_S80000x64_S2x200x200x1x64)
        transposes_S2x200x200x1x64_S2x1x64x200x200_0_3_4_1_2)
      shapeCasts_S2x1x64x200x200_S2x64x200x200 (ix4 b c xx y) = P (ix2 s c) := by
  have hb := b.isLt
  have hc := c.isLt
  have hx := xx.isLt
  have hy := y.isLt
  have hr : b.val * 40000 + xx.val * 200 + y.val < 80000 := by omega
  -- the unit axis comes back: (b, c, x, y) is (b, 0, c, x, y)
  refine (shapeCast_apply _ _ (ix4 b c xx y) (ix5 b (0 : Fin 1) c xx y) ?_).trans ?_
  · rw [Shape.rowMajor_val_five, Shape.rowMajor_val_four]
    show (((b.val * 1 + 0) * 64 + c.val) * 200 + xx.val) * 200 + y.val
      = ((b.val * 64 + c.val) * 200 + xx.val) * 200 + y.val
    omega
  -- the axes go back to batch × x × y × 1 × channel
  refine (transpose_apply _ _ _ (ix5 b (0 : Fin 1) c xx y) (ix5 b xx y (0 : Fin 1) c) ?_).trans ?_
  · intro a
    match a with
    | ⟨0, _⟩ => rfl
    | ⟨1, _⟩ => rfl
    | ⟨2, _⟩ => rfl
    | ⟨3, _⟩ => rfl
    | ⟨4, _⟩ => rfl
  -- batch, x and y merge into the segment number
  refine (shapeCast_apply _ _ (ix5 b xx y (0 : Fin 1) c)
    (ix2 (⟨b.val * 40000 + xx.val * 200 + y.val, hr⟩ : Fin 80000) c) ?_).trans ?_
  · rw [Shape.rowMajor_val_five, Shape.rowMajor_val_two]
    show (b.val * 40000 + xx.val * 200 + y.val) * 64 + c.val
      = (((b.val * 200 + xx.val) * 200 + y.val) * 1 + 0) * 64 + c.val
    omega
  -- and the cut starts at row 0
  exact slice2_axis0_apply 0 P _ _ c s (by rw [hs]; exact (Nat.zero_add _).symm)

/-! ## Where one update lands

The scatter's dimension numbers: the update array's axis 1 is its window axis and goes to the operand's axis 1;
the operand's axis 0 is inserted and is the one axis the start index names; the index array's axis 1 holds the
(one-component) start index. So update element `(n, c')` has start `(idx (n, 0), 0)` — the word read signed —
and window coordinate `(0, c')`, and lands at row `idx (n, 0)`, column `c'`, when that row exists. -/

/-- The index-array position where update `(n, c')` reads its start index's only component: `(n, 0)`. -/
theorem siIdx_zero (n : Fin 967680) (c' : Fin 64)
    (h : 0 < scatter_S80001x64_S967680x1_S967680x64_1_0_0_1.scatterDimsToOperandDims.length) :
    scatter_S80001x64_S967680x1_S967680x64_1_0_0_1.siIdx (ix2 n c') ⟨0, h⟩ = ix2 n (0 : Fin 1) := by
  funext b
  match b with
  | ⟨0, _⟩ => exact Fin.ext rfl
  | ⟨1, _⟩ => exact Fin.ext rfl

/-- On the row axis the window starts at the index word, read as a signed integer. -/
theorem start_zero {w : Nat} (idx : IVec S967680x1 w) (n : Fin 967680) (c' : Fin 64) :
    scatter_S80001x64_S967680x1_S967680x64_1_0_0_1.start (ix2 n c') idx (0 : Fin 2)
      = (idx (ix2 n (0 : Fin 1))).toInt := by
  unfold ScatterDims.start
  have hm : (0 : Fin S80001x64.rank) ∈ scatter_S80001x64_S967680x1_S967680x64_1_0_0_1.scatterDimsToOperandDims := by
    show (0 : Fin 2) ∈ ([0] : List (Fin 2))
    decide
  rw [dif_pos hm]
  exact congrArg (fun k => (idx k).toInt) (siIdx_zero n c' _)

/-- On the column axis, which the start index does not name, the window starts at 0. -/
theorem start_one {w : Nat} (idx : IVec S967680x1 w) (n : Fin 967680) (c' : Fin 64) :
    scatter_S80001x64_S967680x1_S967680x64_1_0_0_1.start (ix2 n c') idx (1 : Fin 2) = 0 := by
  unfold ScatterDims.start
  have hm : ¬ (1 : Fin S80001x64.rank) ∈ scatter_S80001x64_S967680x1_S967680x64_1_0_0_1.scatterDimsToOperandDims := by
    show ¬ (1 : Fin 2) ∈ ([0] : List (Fin 2))
    decide
  rw [dif_neg hm]

/-- The row axis is inserted: the window has no extent there. -/
theorem window_zero (n : Fin 967680) (c' : Fin 64) :
    scatter_S80001x64_S967680x1_S967680x64_1_0_0_1.window (ix2 n c') (0 : Fin 2) = 0 := by
  unfold ScatterDims.window
  have hm : ¬ (0 : Fin S80001x64.rank) ∈ scatter_S80001x64_S967680x1_S967680x64_1_0_0_1.sKept := by
    show ¬ (0 : Fin 2) ∈ (List.finRange 2).filter (fun a => a ∉ ([0] : List (Fin 2)))
    decide
  rw [dif_neg hm]

/-- On the column axis the window coordinate is the update's channel. -/
theorem window_one (n : Fin 967680) (c' : Fin 64) :
    scatter_S80001x64_S967680x1_S967680x64_1_0_0_1.window (ix2 n c') (1 : Fin 2) = c'.val := by
  unfold ScatterDims.window
  have hm : (1 : Fin S80001x64.rank) ∈ scatter_S80001x64_S967680x1_S967680x64_1_0_0_1.sKept := by
    show (1 : Fin 2) ∈ (List.finRange 2).filter (fun a => a ∉ ([0] : List (Fin 2)))
    decide
  rw [dif_pos hm]
  rfl

/-- Update `(n, c')` lands on element `(s, c)` exactly when its index word, read signed, is `s` and its channel
    is `c`. (When the word is not a row of the operand the update is dropped, and then it is no `s` at all.) -/
theorem resultIdx_eq_some_iff {w : Nat} (idx : IVec S967680x1 w) (n : Fin 967680) (c' : Fin 64)
    (s : Fin 80001) (c : Fin 64) :
    scatter_S80001x64_S967680x1_S967680x64_1_0_0_1.resultIdx? (ix2 n c') idx = some (ix2 s c)
      ↔ (idx (ix2 n (0 : Fin 1))).toInt = (s.val : Int) ∧ c' = c := by
  have hs := s.isLt
  have hc' := c'.isLt
  unfold ScatterDims.resultIdx?
  split
  · rename_i h
    rw [Option.some.injEq]
    constructor
    · intro e
      have e0 : (scatter_S80001x64_S967680x1_S967680x64_1_0_0_1.start (ix2 n c') idx (0 : Fin 2)
          + (scatter_S80001x64_S967680x1_S967680x64_1_0_0_1.window (ix2 n c') (0 : Fin 2) : Int)).toNat = s.val :=
        congrArg (fun k => (k (0 : Fin 2)).val) e
      have e1 : (scatter_S80001x64_S967680x1_S967680x64_1_0_0_1.start (ix2 n c') idx (1 : Fin 2)
          + (scatter_S80001x64_S967680x1_S967680x64_1_0_0_1.window (ix2 n c') (1 : Fin 2) : Int)).toNat = c.val :=
        congrArg (fun k => (k (1 : Fin 2)).val) e
      have h0 := (h (0 : Fin 2)).1
      rw [start_zero, window_zero] at e0 h0
      rw [start_one, window_one] at e1
      exact ⟨by omega, Fin.ext (by omega)⟩
    · rintro ⟨e0, rfl⟩
      funext a
      match a with
      | ⟨0, _⟩ =>
        refine Fin.ext ?_
        show (scatter_S80001x64_S967680x1_S967680x64_1_0_0_1.start (ix2 n c') idx (0 : Fin 2)
          + (scatter_S80001x64_S967680x1_S967680x64_1_0_0_1.window (ix2 n c') (0 : Fin 2) : Int)).toNat = s.val
        rw [start_zero, window_zero, e0]
        omega
      | ⟨1, _⟩ =>
        refine Fin.ext ?_
        show (scatter_S80001x64_S967680x1_S967680x64_1_0_0_1.start (ix2 n c') idx (1 : Fin 2)
          + (scatter_S80001x64_S967680x1_S967680x64_1_0_0_1.window (ix2 n c') (1 : Fin 2) : Int)).toNat = c'.val
        rw [start_one, window_one]
        omega
  · rename_i h
    constructor
    · intro e
      exact absurd e (by simp)
    · rintro ⟨e0, rfl⟩
      exfalso
      apply h
      intro a
      match a with
      | ⟨0, _⟩ =>
        show 0 ≤ scatter_S80001x64_S967680x1_S967680x64_1_0_0_1.start (ix2 n c') idx (0 : Fin 2)
              + (scatter_S80001x64_S967680x1_S967680x64_1_0_0_1.window (ix2 n c') (0 : Fin 2) : Int)
          ∧ scatter_S80001x64_S967680x1_S967680x64_1_0_0_1.start (ix2 n c') idx (0 : Fin 2)
              + (scatter_S80001x64_S967680x1_S967680x64_1_0_0_1.window (ix2 n c') (0 : Fin 2) : Int) < ((80001 : Nat) : Int)
        rw [start_zero, window_zero, e0]
        omega
      | ⟨1, _⟩ =>
        show 0 ≤ scatter_S80001x64_S967680x1_S967680x64_1_0_0_1.start (ix2 n c') idx (1 : Fin 2)
              + (scatter_S80001x64_S967680x1_S967680x64_1_0_0_1.window (ix2 n c') (1 : Fin 2) : Int)
          ∧ scatter_S80001x64_S967680x1_S967680x64_1_0_0_1.start (ix2 n c') idx (1 : Fin 2)
              + (scatter_S80001x64_S967680x1_S967680x64_1_0_0_1.window (ix2 n c') (1 : Fin 2) : Int) < ((64 : Nat) : Int)
        rw [start_one, window_one]
        omega

/-! ## The scatter-add as a sum over the points

At the exact values the scatter-add gives each element of the operand plus the sum of the updates that land on it.
By the previous section the updates landing on `(s, c)` are the `(n, c)` with index word `s`. -/

theorem scatterAdd_apply {w : Nat} (x0 : FVec Ideal S80001x64 .f32) (idx : IVec S967680x1 w)
    (upd : FVec Ideal S967680x64 .f32) (s : Fin 80001) (c : Fin 64) :
    Host.scatterAdd scatter_S80001x64_S967680x1_S967680x64_1_0_0_1 x0 idx upd (ix2 s c)
      = x0 (ix2 s c)
        + ∑ n : Fin 967680, if (idx (ix2 n (0 : Fin 1))).toInt = (s.val : Int) then upd (ix2 n c) else 0 := by
  show Ideal.hostScatterAdd scatter_S80001x64_S967680x1_S967680x64_1_0_0_1 x0 idx upd (ix2 s c) = _
  unfold Ideal.hostScatterAdd
  refine congrArg (fun t => x0 (ix2 s c) + t) ?_
  rw [Finset.sum_filter, sum_idx2]
  refine Finset.sum_congr rfl fun n _ => ?_
  simp only [resultIdx_eq_some_iff]
  by_cases hn : (idx (ix2 n (0 : Fin 1))).toInt = (s.val : Int)
  · simp only [hn, true_and, if_true]
    rw [Finset.sum_ite_eq' Finset.univ c (fun c' => upd (ix2 n c')), if_pos (Finset.mem_univ c)]
  · simp only [hn, false_and, if_false, Finset.sum_const_zero]

/-- The array the sums start from is zero everywhere. -/
theorem zeros_apply (i : S80001x64.Idx) :
    (broadcastInDim S80001x64 ![] bcast_S_S80001x64 (constant (F := Ideal) S_ .f32 0x00000000#32)) i = (0 : EReal) := by
  refine (broadcastInDim_apply _ _ _ i ix0 (fun a => a.elim0)).trans ?_
  rw [constant_apply]
  exact Ideal.ofBits_zero_f32

/-- Point `n` of the flattened list of all points is point `p` of batch `b'` when `n = 483840·b' + p`: its
    index word is that point's segment. -/
theorem idx_apply (sg : IVec S2x483840 32) (b' : Fin 2) (p : Fin 483840) (n : Fin 967680)
    (hn : n.val = b'.val * 483840 + p.val) :
    (broadcastInDim S967680x1 ![0] bcast_S967680_S967680x1_0 (shapeCast S967680 sg shapeCasts_S2x483840_S967680))
        (ix2 n (0 : Fin 1)) = sg (ix2 b' p) := by
  refine (broadcastInDim_apply _ _ _ (ix2 n (0 : Fin 1)) (ix1 n) (fun a => ?_)).trans ?_
  · match a with
    | ⟨0, _⟩ => rfl
  refine shapeCast_apply _ _ (ix1 n) (ix2 b' p) ?_
  rw [Shape.rowMajor_val_two, Shape.rowMajor_val_one]
  show b'.val * 483840 + p.val = n.val
  exact hn.symm

/-- … and its update row is that point's feature row. -/
theorem upd_apply {α : Type} (X : S2x483840x64.Idx → α) (b' : Fin 2) (p : Fin 483840) (n : Fin 967680) (c : Fin 64)
    (hn : n.val = b'.val * 483840 + p.val) :
    shapeCast S967680x64 X shapeCasts_S2x483840x64_S967680x64 (ix2 n c) = X (ix3 b' p c) := by
  refine shapeCast_apply _ _ (ix2 n c) (ix3 b' p c) ?_
  rw [Shape.rowMajor_val_three, Shape.rowMajor_val_two]
  show (b'.val * 483840 + p.val) * 64 + c.val = n.val * 64 + c.val
  rw [hn]

/-- A sum over all 967680 points is the sum over the two batches of the sums over each batch's 483840 points. -/
theorem sum_points {M : Type*} [AddCommMonoid M] (f : Fin 967680 → M) :
    ∑ n, f n = ∑ b' : Fin 2, ∑ p : Fin 483840,
      f ⟨b'.val * 483840 + p.val, by have := b'.isLt; have := p.isLt; omega⟩ := by
  have h1 := Fintype.sum_equiv (finProdFinEquiv (m := 2) (n := 483840))
    (fun q => f ⟨q.1.val * 483840 + q.2.val, by have := q.1.isLt; have := q.2.isLt; omega⟩) f
    (fun q => congrArg f (Fin.ext (by
      show q.1.val * 483840 + q.2.val = q.2.val + 483840 * q.1.val
      omega)))
  rw [← h1, Fintype.sum_prod_type]

/-! ## Which points hit a segment

The segment of a valid point of batch `b'` is its rank plus `40000·b'`; the rank is below 40000, so the sum does not
wrap around in 32 bits and reads, signed, as the natural number `rank + 40000·b'`. It equals `40000·b + (200·x + y)`
with `200·x + y < 40000` exactly when `b' = b` and the rank is `200·x + y`. A point that is not valid has the spare
segment 80000, above every target. -/

theorem word_hit_iff (v : BitVec 1) (r sg : BitVec 32) (b b' : Fin 2) (xx y : Fin 200)
    (hlt : v = 1#1 → r.toNat < 40000)
    (hseg : sg = if v = 1#1 then r + BitVec.ofNat 32 (b'.val * 40000) else 80000#32) :
    sg.toInt = ((b.val * 40000 + xx.val * 200 + y.val : Nat) : Int)
      ↔ b' = b ∧ (v = 1#1 ∧ r = Cert.Pool.cellNo xx y) := by
  have hb := b.isLt
  have hb' := b'.isLt
  have hx := xx.isLt
  have hy := y.isLt
  have hcell : (Cert.Pool.cellNo xx y).toNat = xx.val * 200 + y.val := by
    unfold Cert.Pool.cellNo
    rw [BitVec.toNat_ofNat]
    omega
  by_cases hv : v = 1#1
  · have hr := hlt hv
    have hn : (r + BitVec.ofNat 32 (b'.val * 40000)).toNat = r.toNat + b'.val * 40000 := by
      rw [BitVec.toNat_add, BitVec.toNat_ofNat]
      omega
    have hi : (r + BitVec.ofNat 32 (b'.val * 40000)).toInt = ((r.toNat + b'.val * 40000 : Nat) : Int) := by
      rw [BitVec.toInt_eq_toNat_of_lt (by rw [hn]; omega), hn]
    rw [hseg, if_pos hv, hi]
    constructor
    · intro e
      have e' : b'.val = b.val ∧ r.toNat = xx.val * 200 + y.val := by omega
      exact ⟨Fin.ext e'.1, hv, BitVec.eq_of_toNat_eq (by rw [hcell]; exact e'.2)⟩
    · rintro ⟨rfl, _, hrk⟩
      rw [hrk, hcell]
      omega
  · have h8 : (80000#32).toInt = ((80000 : Nat) : Int) := by decide
    rw [hseg, if_neg hv, h8]
    constructor
    · intro e
      omega
    · rintro ⟨_, hv', _⟩
      exact absurd hv' hv

/-! ## The result at one index -/

/-- The per-segment array at segment `s`, channel `c`: the sum, over both batches' points, of channel `c` of the
    points whose segment is `s`. -/
theorem pooled_apply (x : FVec Ideal S2x6x48x28x60x64 .f32) (g : FVec Ideal S2x6x48x28x60x3 .f32)
    (s : Fin 80001) (c : Fin 64) :
    RefTerm.pooled x g (ix2 s c)
      = ∑ b' : Fin 2, ∑ p : Fin 483840,
          if (RefTerm.seg g (ix2 b' p)).toInt = (s.val : Int) then RefTerm.feat x (ix3 b' p c) else (0 : EReal) := by
  unfold RefTerm.pooled
  rw [scatterAdd_apply, zeros_apply, zero_add, sum_points]
  refine Finset.sum_congr rfl fun b' _ => Finset.sum_congr rfl fun p _ => ?_
  rw [idx_apply (RefTerm.seg g) b' p _ rfl, upd_apply (RefTerm.feat x) b' p _ c rfl]

theorem res_apply (x : FVec Ideal S2x6x48x28x60x64 .f32) (g : FVec Ideal S2x6x48x28x60x3 .f32)
    (hlt : ∀ (b : Fin 2) (p : Fin 483840), RefTerm.valid g (ix2 b p) = 1#1 → (RefTerm.rank g (ix2 b p)).toNat < 40000)
    (hseg : ∀ (b : Fin 2) (p : Fin 483840), RefTerm.seg g (ix2 b p)
        = if RefTerm.valid g (ix2 b p) = 1#1 then RefTerm.rank g (ix2 b p) + BitVec.ofNat 32 (b.val * 40000) else 80000#32)
    (b : Fin 2) (c : Fin 64) (xx y : Fin 200) :
    RefTerm.res x g (ix4 b c xx y) = Cert.Pool.pool (RefTerm.feat x) (RefTerm.valid g) (RefTerm.rank g) b c xx y := by
  have hb := b.isLt
  have hx := xx.isLt
  have hy := y.isLt
  have hs : b.val * 40000 + xx.val * 200 + y.val < 80001 := by omega
  unfold RefTerm.res
  rw [layout_read (RefTerm.pooled x g) b c xx y ⟨b.val * 40000 + xx.val * 200 + y.val, hs⟩ rfl, pooled_apply]
  unfold Cert.Pool.pool
  -- only batch `b`'s points can hit one of batch `b`'s segments
  rw [Finset.sum_eq_single b]
  · refine Finset.sum_congr rfl fun p _ => ?_
    have h := word_hit_iff _ _ _ b b xx y (hlt b p) (hseg b p)
    by_cases hh : RefTerm.valid g (ix2 b p) = 1#1 ∧ RefTerm.rank g (ix2 b p) = Cert.Pool.cellNo xx y
    · rw [if_pos (h.2 ⟨rfl, hh⟩), if_pos hh]
    · rw [if_neg (fun e => hh (h.1 e).2), if_neg hh]
  · intro b' _ hne
    refine Finset.sum_eq_zero fun p _ => ?_
    have h := word_hit_iff _ _ _ b b' xx y (hlt b' p) (hseg b' p)
    rw [if_neg (fun e => hne (h.1 e).1)]
  · intro hnm
    exact absurd (Finset.mem_univ b) hnm

end Cert.ReferenceIdeal.RefRead

end
-- ==== Proof.RefChain.lean ====
/-
  The integer half of the reference's chain, read at one point `(b, p)`.

  Write `v k` for the three voxel coordinates of the point: the entries `(b, p, k)`, `k = 0, 1, 2`, of the
  array of voxel coordinates, three 32-bit words about which nothing is assumed here. The reference

  * calls the point valid when, read as signed numbers, `0 ≤ v k < e k` for every `k`, with the grid's extents
    `e = (200, 200, 1)`: the conjunction over `k` is a reduction by `and`, from 1, along the last axis;
  * numbers its voxel `rank = (v 0 · 200 + v 1 · 1) + v 2` in wrapping 32-bit arithmetic;
  * sends it to segment `rank + 40000 · b` when valid, and to the spare segment 80000 otherwise.

  Two facts are proved. For a valid point the three coordinates are, as natural numbers, below 200, below
  200, and 0, so the rank is `200 · v 0 + v 1 < 40000` and no step of its computation wraps. And the segment
  word is the `if` just described, the batch offset being the word of the number `40000 · b`.
-/
import proofs.«142708_j78486232367648_1_alg».proof.Proof.RefTerm
import Idealize.ShloMosaic.Lib.ValueIdx
import Idealize.ShloMosaic.Lib.Pipeline.Value
import Idealize.ShloMosaic.Lib.ReduceAll
import Idealize.ShloMosaic.Lib.Affine

namespace Cert.ReferenceIdeal.RefChain

open Idealize.ShloMosaic Idealize.ShloMosaic.ValueIdx Cert.ReferenceIdeal Cert.ReferenceIdeal.Facts₀
  Cert.ReferenceIdeal.Facts

/-! ### The layout operations, read at one point -/

/-- Coordinate `o` of every point, cut out of the batch × point × 3 array as a batch × point × 1 slab and
    flattened to batch × point: at `(b, p)` it is the array's entry `(b, p, o)`. The slab's entry `(b, p, 0)` has
    the same row-major position as `(b, p)`, and the cut shifts the last coordinate by `o`. -/
theorem coord_apply (x : IVec S2x483840x3 32) (o : Nat) (ho : o < 3)
    (h : S2x483840x3.Slices ![0, 0, o] S2x483840x1) (h' : S2x483840x1.ShapeCasts S2x483840)
    (b : Fin 2) (p : Fin 483840) :
    shapeCast S2x483840 (extractStridedSlice S2x483840x1 ![0, 0, o] x h) h' (ix2 b p) = x (ix3 b p ⟨o, ho⟩) := by
  refine (shapeCast_apply _ h' (ix2 b p) (ix3 b p (0 : Fin 1)) ?_).trans ?_
  · rw [Shape.rowMajor_val_three, Shape.rowMajor_val_two]
    show (b.val * 483840 + p.val) * 1 + 0 = b.val * 483840 + p.val
    omega
  · refine extractStridedSlice_apply _ x h (ix3 b p (0 : Fin 1)) (ix3 b p ⟨o, ho⟩) fun a => ?_
    match a with
    | ⟨0, _⟩ => show b.val = 0 + b.val; omega
    | ⟨1, _⟩ => show p.val = 0 + p.val; omega
    | ⟨2, _⟩ => show o = o + 0; omega

/-- The table of extents, copied along the batch and point axes: entry `(b, p, k)` is the table's entry `k`. -/
theorem extent_apply (h1 : S3.BroadcastsInDim S1x1x3 ![2]) (h2 : S1x1x3.BroadcastsInDim S2x483840x3 ![0, 1, 2])
    (b : Fin 2) (p : Fin 483840) (k : Fin 3) :
    broadcastInDim S2x483840x3 ![0, 1, 2] h2 (broadcastInDim S1x1x3 ![2] h1 (fun i => lit2 (S3.rowMajor i)))
      (ix3 b p k) = lit2 k := by
  refine (broadcastInDim_apply _ h2 _ (ix3 b p k) (ix3 (0 : Fin 1) (0 : Fin 1) k) fun a => ?_).trans ?_
  · match a with
    | ⟨0, _⟩ => rfl
    | ⟨1, _⟩ => rfl
    | ⟨2, _⟩ => rfl
  refine (broadcastInDim_apply _ h1 _ (ix3 (0 : Fin 1) (0 : Fin 1) k) (ix1 k) fun a => ?_).trans ?_
  · match a with
    | ⟨0, _⟩ => rfl
  exact congrArg lit2 (Fin.ext (Shape.rowMajor_val_one (ix1 k)))

/-- A conjunction along the last axis that came out 1 had a 1 at every entry of its row: the entries
    `(b, p, k)` are exactly those that lose their last coordinate to `(b, p)`. -/
theorem and_row (w : IVec S2x483840x3 1) (init : IVec S_ 1) (h : S2x483840x3.ReducesTo [2] S2x483840)
    (hu : 0 < S_.numel) (b : Fin 2) (p : Fin 483840)
    (e : Host.reduce IntOp.andi w init h hu (ix2 b p) = 1#1) (k : Fin 3) : w (ix3 b p k) = 1#1 :=
  Host.reduce_andi_eq_one w init h hu (ix2 b p) e (ix3 b p k) (by
    funext d
    match d with
    | ⟨0, _⟩ => rfl
    | ⟨1, _⟩ => rfl)

/-- The batch offset: the batch number as a word, times 40000, copied along the point axis; the product does
    not wrap, so it is the word of the number `40000 · b`. -/
theorem offset_apply (h0 : S2.BroadcastsInDim S2x1 ![0]) (h1 : S_.BroadcastsInDim S2x1 ![])
    (h2 : S2x1.BroadcastsInDim S2x483840 ![0, 1]) (b : Fin 2) (p : Fin 483840) :
    broadcastInDim S2x483840 ![0, 1] h2
        (muli (broadcastInDim S2x1 ![0] h0 (iotaInDim S2 32 0))
          (broadcastInDim S2x1 ![] h1 (constantI S_ 32 40000#32))) (ix2 b p)
      = BitVec.ofNat 32 (b.val * 40000) := by
  refine (broadcastInDim_apply _ h2 _ (ix2 b p) (ix2 b (0 : Fin 1)) fun a => ?_).trans ?_
  · match a with
    | ⟨0, _⟩ => rfl
    | ⟨1, _⟩ => rfl
  show IntOp.muli (broadcastInDim S2x1 ![0] h0 (iotaInDim S2 32 0) (ix2 b (0 : Fin 1))) 40000#32 = _
  rw [broadcastInDim_apply _ h0 (iotaInDim S2 32 0) (ix2 b (0 : Fin 1)) (ix1 b) fun a => by
    match a with
    | ⟨0, _⟩ => rfl]
  show BitVec.ofNat 32 b.val * 40000#32 = BitVec.ofNat 32 (b.val * 40000)
  match b with
  | ⟨0, _⟩ => rfl
  | ⟨1, _⟩ => rfl

/-! ### Validity, the voxel number and the segment of one point -/

variable {F : FTy → Type} [FloatOps F] [Cert.ReferenceIdeal.Facts]

/-- A valid point's coordinate `k`, read as a signed number, is at least 0 and below the extent on axis `k`:
    the conjunction along the last axis gives entry `(b, p, k)` of the pointwise `and` of the two comparisons,
    and each comparison says what it compares. -/
theorem valid_bounds (g : FVec F S2x6x48x28x60x3 .f32) (b : Fin 2) (p : Fin 483840)
    (h : RefTerm.valid g (ix2 b p) = 1#1) (k : Fin 3) :
    0 ≤ (RefTerm.vox g (ix3 b p k)).toInt ∧ (RefTerm.vox g (ix3 b p k)).toInt < (lit2 k).toInt := by
  have e := and_row _ _ _ _ b p h k
  have e' : IntOp.andi (IntOp.cmpi .sge (RefTerm.vox g (ix3 b p k)) 0#32)
      (IntOp.cmpi .slt (RefTerm.vox g (ix3 b p k))
        (broadcastInDim S2x483840x3 ![0, 1, 2] bcast_S1x1x3_S2x483840x3_0_1_2
          (broadcastInDim S1x1x3 ![2] bcast_S3_S1x1x3_2 (fun i => lit2 (S3.rowMajor i))) (ix3 b p k))) = 1#1 := e
  rw [extent_apply, IntOp.andi_eq_one, IntOp.cmpi_sge, IntOp.cmpi_slt] at e'
  exact ⟨e'.1, e'.2⟩

/-- A 32-bit word that is, signed, at least 0 and below a bound of at most 2³¹ is, unsigned, below that bound. -/
theorem toNat_lt_of_toInt (v : BitVec 32) (n : Nat) (hn : n ≤ 2147483648) (h0 : 0 ≤ v.toInt) (h1 : v.toInt < (n : Int)) :
    v.toNat < n := by
  have c := BitVec.toInt_eq_toNat_cond v
  have l := v.isLt
  omega

/-- So, as natural numbers, a valid point's coordinates are below 200, below 200, and 0. -/
theorem valid_toNat (g : FVec F S2x6x48x28x60x3 .f32) (b : Fin 2) (p : Fin 483840)
    (h : RefTerm.valid g (ix2 b p) = 1#1) :
    (RefTerm.vox g (ix3 b p (0 : Fin 3))).toNat < 200 ∧ (RefTerm.vox g (ix3 b p (1 : Fin 3))).toNat < 200
      ∧ (RefTerm.vox g (ix3 b p (2 : Fin 3))).toNat = 0 := by
  have h0 := valid_bounds g b p h 0
  have h1 := valid_bounds g b p h 1
  have h2 := valid_bounds g b p h 2
  have t0 := toNat_lt_of_toInt _ 200 (by omega) h0.1 h0.2
  have t1 := toNat_lt_of_toInt _ 200 (by omega) h1.1 h1.2
  have t2 := toNat_lt_of_toInt _ 1 (by omega) h2.1 h2.2
  exact ⟨t0, t1, by omega⟩

/-- The voxel number of a point, in its three coordinates. -/
theorem rank_apply (g : FVec F S2x6x48x28x60x3 .f32) (b : Fin 2) (p : Fin 483840) :
    RefTerm.rank g (ix2 b p)
      = (RefTerm.vox g (ix3 b p (0 : Fin 3)) * 200#32 + RefTerm.vox g (ix3 b p (1 : Fin 3)) * 1#32)
          + RefTerm.vox g (ix3 b p (2 : Fin 3)) := by
  show IntOp.addi (IntOp.addi (IntOp.muli (RefTerm.coord0 g (ix2 b p)) 200#32)
      (IntOp.muli (RefTerm.coord1 g (ix2 b p)) 1#32)) (RefTerm.coord2 g (ix2 b p)) = _
  unfold RefTerm.coord0 RefTerm.coord1 RefTerm.coord2
  rw [coord_apply _ 0 (by omega), coord_apply _ 1 (by omega), coord_apply _ 2 (by omega)]
  rfl

/-- A valid point's voxel number is one of the 40000 cells' numbers. -/
theorem rank_lt_of_valid (g : FVec F S2x6x48x28x60x3 .f32) (b : Fin 2) (p : Fin 483840)
    (h : RefTerm.valid g (ix2 b p) = 1#1) : (RefTerm.rank g (ix2 b p)).toNat < 40000 := by
  obtain ⟨h0, h1, h2⟩ := valid_toNat g b p h
  -- below 200, the first coordinate times 200 does not wrap
  have m0 : (RefTerm.vox g (ix3 b p (0 : Fin 3)) * 200#32).toNat
      = (RefTerm.vox g (ix3 b p (0 : Fin 3))).toNat * 200 := by
    rw [BitVec.toNat_mul]
    exact Nat.mod_eq_of_lt (by show _ * 200 < 4294967296; omega)
  have m1 : RefTerm.vox g (ix3 b p (1 : Fin 3)) * 1#32 = RefTerm.vox g (ix3 b p (1 : Fin 3)) := BitVec.mul_one _
  -- nor does the sum of the first two terms, which is below 40000
  have a01 : (RefTerm.vox g (ix3 b p (0 : Fin 3)) * 200#32 + RefTerm.vox g (ix3 b p (1 : Fin 3)) * 1#32).toNat
      = (RefTerm.vox g (ix3 b p (0 : Fin 3))).toNat * 200 + (RefTerm.vox g (ix3 b p (1 : Fin 3))).toNat := by
    rw [BitVec.toNat_add, m0, m1]
    exact Nat.mod_eq_of_lt (by show _ < 4294967296; omega)
  rw [rank_apply, BitVec.toNat_add, a01, h2]
  omega

/-- The segment word of a point: its voxel number offset by its batch when valid, the spare segment otherwise. -/
theorem seg_apply (g : FVec F S2x6x48x28x60x3 .f32) (b : Fin 2) (p : Fin 483840) :
    RefTerm.seg g (ix2 b p)
      = if RefTerm.valid g (ix2 b p) = 1#1 then RefTerm.rank g (ix2 b p) + BitVec.ofNat 32 (b.val * 40000)
        else 80000#32 := by
  have e : RefTerm.seg g (ix2 b p)
      = Scalar.select (RefTerm.valid g (ix2 b p))
          (RefTerm.rank g (ix2 b p)
            + broadcastInDim S2x483840 ![0, 1] bcast_S2x1_S2x483840_0_1
                (muli (broadcastInDim S2x1 ![0] bcast_S2_S2x1_0 (iotaInDim S2 32 0))
                  (broadcastInDim S2x1 ![] bcast_S_S2x1 (constantI S_ 32 40000#32))) (ix2 b p))
          80000#32 := rfl
  rw [e, offset_apply]
  by_cases hv : RefTerm.valid g (ix2 b p) = 1#1
  · rw [if_pos hv, hv, select_one]
  · rw [if_neg hv, eq_zero_of_ne_one hv, select_zero]

end Cert.ReferenceIdeal.RefChain
-- ==== Proof.Agree.lean ====
/-
  The two programs compute each point's validity and voxel number, and the batch × point × channel view of the
  features, by the same operations on the same arrays: the kernel's and the reference's are one array each.
-/
import proofs.«142708_j78486232367648_1_alg».proof.Proof.KTerm
import proofs.«142708_j78486232367648_1_alg».proof.Proof.RefTerm

noncomputable section

namespace Cert.Agree

open Idealize.ShloMosaic

variable {F : FTy → Type} [FloatOps F] [Cert.KernelIdeal.Facts] [Cert.ReferenceIdeal.Facts]

theorem valid_eq (g : FVec F Cert.KernelIdeal.S2x6x48x28x60x3 .f32) :
    Cert.KernelIdeal.KTerm.valid g = Cert.ReferenceIdeal.RefTerm.valid g := rfl

theorem rank_eq (g : FVec F Cert.KernelIdeal.S2x6x48x28x60x3 .f32) :
    Cert.KernelIdeal.KTerm.rank g = Cert.ReferenceIdeal.RefTerm.rank g := rfl

theorem feat_eq (x : FVec F Cert.KernelIdeal.S2x6x48x28x60x64 .f32) :
    Cert.KernelIdeal.KTerm.feat x = Cert.ReferenceIdeal.RefTerm.feat x := rfl

end Cert.Agree

end
-- ==== Proof.lean ====
/-
  The certificate of a bird's-eye-view pooling kernel against its reference.

  Both programs take camera-frustum features x (2 batches × 483840 points × 64 channels) and each point's position.
  From the positions both compute, by the same host operations, each point's three integer voxel coordinates,
  whether the point is valid (all three inside the 200 × 200 × 1 grid) and its voxel's row-major number
  200·i + j + k. The result, batch × channel × 200 × 200, holds at (b, c, x, y) the sum of channel c over the
  valid points of batch b whose voxel number is 200·x + y.

  The reference gets there by ONE scatter-add over all points of both batches into 2·40000 + 1 segments — a valid
  point's segment is its voxel number plus 40000 times its batch, every other point goes to the spare last segment,
  which is dropped — followed by a re-layout. At exact values a scatter-add is the sum of the updates that land on an
  element; a valid point's voxel number is below 40000, so its segment falls in its own batch's range and names its
  cell; hence the sum.

  The kernel gets there tile by tile: for each batch and each tile of 1000 cells it walks the batch's points in 252
  blocks of 1920, builds the 1920 × 1000 matrix of "point k's number is cell v of this tile" (a point that is not
  valid carries −1, no cell's number), multiplies its transpose into the block's features and accumulates. After the
  last block the tile holds, per cell, the sum over all the batch's points with that number; the tiles fill the
  batch × 40000 × 64 array, which two host steps re-lay as batch × channel × 200 × 200.

  Both sides are the same sum of the same terms, so no property of the extended reals beyond 0 + a = a, 0·a = 0 and
  1·a = a is used, and the precondition (finite inputs) is never opened. The three frames are the generated frame
  runs (the reference's its run with the result dropped). The kernel read at exact values is its own text, operation
  for operation, so the conjunct relating the kernel to that reading asks nothing.
-/
import proofs.«142708_j78486232367648_1_alg».proof.Defs
import proofs.«142708_j78486232367648_1_alg».proof.Proof.Gen.Kernel
import proofs.«142708_j78486232367648_1_alg».proof.Proof.Gen.Kernel.Frame
import proofs.«142708_j78486232367648_1_alg».proof.Proof.Gen.KernelIdeal
import proofs.«142708_j78486232367648_1_alg».proof.Proof.Gen.KernelIdeal.Frame
import proofs.«142708_j78486232367648_1_alg».proof.Proof.Gen.ReferenceIdeal
import proofs.«142708_j78486232367648_1_alg».proof.Proof.Gen.Pre_finite_inputs
import proofs.«142708_j78486232367648_1_alg».proof.Proof.KFinal
import proofs.«142708_j78486232367648_1_alg».proof.Proof.KHost
import proofs.«142708_j78486232367648_1_alg».proof.Proof.RefRun
import proofs.«142708_j78486232367648_1_alg».proof.Proof.RefRead
import proofs.«142708_j78486232367648_1_alg».proof.Proof.RefChain
import proofs.«142708_j78486232367648_1_alg».proof.Proof.Agree
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The reference's result of the kernel's arguments is the kernel's result, entry by entry: both are the
    specification's sum, over the same features, validity and voxel numbers. -/
theorem result_eq (m : (ℓ : Loc Cert.KernelIdeal.nD Cert.KernelIdeal.τ Cert.KernelIdeal.sig) → Buf (Elt Ideal) ℓ)
    (c : Dev Cert.KernelIdeal.nD) :
    Cert.ReferenceIdeal.RefTerm.res (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.KFinal.outK m c := by
  funext o
  obtain ⟨b, cc, x, y, rfl⟩ : ∃ (b : Fin 2) (cc : Fin 64) (x y : Fin 200), o = ix4 b cc x y :=
    ⟨o 0, o 1, o 2, o 3, eq_ix4 o⟩
  rw [Cert.ReferenceIdeal.RefRead.res_apply _ _
      (fun b p h => Cert.ReferenceIdeal.RefChain.rank_lt_of_valid _ b p h)
      (fun b p => Cert.ReferenceIdeal.RefChain.seg_apply _ b p) b cc x y,
    Cert.KernelIdeal.KFinal.outK_apply m c b cc x y,
    ← Cert.Agree.valid_eq, ← Cert.Agree.rank_eq, ← Cert.Agree.feat_eq]

/-- From memories agreeing on the arguments both idealized programs run, to equal results. -/
theorem algebraic : Cert.algebraic_KernelIdeal_ReferenceIdeal := by
  intro m ρ m' ρ' _ hagree
  refine ⟨fun c => Cert.KernelIdeal.KFinal.outK m c,
    Cert.KernelIdeal.KFinal.run m ρ (fun c => ⟨Cert.KernelIdeal.KHost.feat_at m c, Cert.KernelIdeal.KHost.seg_at m c⟩), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
